-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31_2)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v31_0)) (v3 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_2) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v31_0) = v2 c
          ∧ r.2.mem ((c.tc : Thread Cert.KernelIdeal.nD Cert.KernelIdeal.τ).loc Cert.KernelIdeal.main_v31_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg8
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 51
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S1x40, .f32⟩
  | .hbm, ⟨48, _⟩ => ⟨S100000x64, .f32⟩
  | .hbm, ⟨49, _⟩ => ⟨S100000x40, .f32⟩
  | .hbm, ⟨50, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S64x40, .f32⟩
  | .local _ .vmem, ⟨17, _⟩ => ⟨S1x40, .f32⟩
  | .local _ .vmem, ⟨18, _⟩ => ⟨S5000x64, .f32⟩
  | .local _ .vmem, ⟨19, _⟩ => ⟨S5000x64, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v31_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reduces_S5000x40_S5000 : S5000x40.Reduces [1] S5000
  shapeCasts_S5000_S5000x1 : S5000.ShapeCasts S5000x1
  broadcasts_S5000x1_S5000x40 : S5000x1.Broadcasts S5000x40
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31_1) S5000x40.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31_2) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x1, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x40, .f32⟩
  | .hbm, ⟨57, _⟩ => ⟨S1x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x40, .f32⟩
  | .hbm, ⟨67, _⟩ => ⟨S100000x40, .f32⟩
  | .hbm, ⟨68, _⟩ => ⟨S100000x40, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S100000x1, .f32⟩
  | .hbm, ⟨73, _⟩ => ⟨S100000x40, .f32⟩
  | .hbm, ⟨74, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_call2_cst_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_1 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_v40 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's whole run, with its result buffers named.

  The program is three kernel regions separated by two stretches of host operations. Its memory after the run is a
  fold through those five segments: each region leaves its arrays at what its grid points wrote back and every
  other buffer as it found it, each host stretch applies its operations. The statement below reads that fold at the
  four result buffers and at the ten arguments: every weakly fair execution terminates, each result buffer holds the
  fold's value there, and each argument holds what it was launched with.
-/
import proofs.«140483_j67920612819568_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the four result buffers end at the
    value the fold through the five segments gives them, and the ten arguments end as launched. -/
theorem run : θ_run defs (onTc (τ := τ) (main (F := F))) ⟨m, fun _ => 0, ρ⟩ (fun r => ∀ c : Dev nD,
      r.2.mem ((c.tc : Thread nD τ).loc main_v31_2) = W5 m ρ c (Proc.devRef .tc main_v31_2)
      ∧ r.2.mem ((c.tc : Thread nD τ).loc main_v15_0) = W5 m ρ c (Proc.devRef .tc main_v15_0)
      ∧ r.2.mem ((c.tc : Thread nD τ).loc main_v31_0) = W5 m ρ c (Proc.devRef .tc main_v31_0)
      ∧ r.2.mem ((c.tc : Thread nD τ).loc main_v31_1) = W5 m ρ c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31_2 (by decide)),
       h c _ (mem_uc main_v15_0 (by decide)),
       h c _ (mem_uc main_v31_0 (by decide)),
       h c _ (mem_uc main_v31_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Whole

end
-- ==== Proof.Spec.lean ====
/-
  The network the two programs compute, stage by stage (read over the extended reals at the ideal instance).

  A two-layer graph convolution with a linear classifier: node features x [100000, 128], a weighted edge list
  (source, destination, weight; 1600000 edges), and the layers' weights.
    * a dense product  X · W  (three shapes);
    * the neighbourhood aggregation  A(H)[d, :] = Σ over edges e with destination d of  w(e) · H[source(e), :] ,
      spelt as the host spells it: a negative source index is first wrapped by the number of nodes, the source rows
      are gathered, scaled by the edge weights, and added into a zero array at the destination rows;
    * bias and rectifier  max(A + b, 0)  with the bias spread over the rows;
    * the classifier's scores  H · W + b ;
    * the row-wise log-softmax  s ↦ (s − M) − log Σ exp(s − M) , M the row's maximum.
  Each stage is a function of whole arrays; the four results are their compositions.
-/
import proofs.«140483_j67920612819568_1_alg».proof.ReferenceIdeal
import proofs.«140483_j67920612819568_1_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic

variable {F : FTy → Type} [FloatOps F]

/-- A float array of a given shape (over the extended reals at the ideal instance). -/
abbrev Arr (F : FTy → Type) (s : Shape) := FVec F s .f32
/-- A 32-bit integer array of a given shape. -/
abbrev IArr (s : Shape) := IVec s 32

/-- X · W for node features of width 128 and a [128, 64] weight. -/
def dense1 (x : Arr F S100000x128) (w : Arr F S128x64) : Arr F S100000x64 :=
  Host.dotGeneral dot_S100000x128_S128x64_S100000x64_1_0_0_1_n_n none x w

/-- H · W for hidden features of width 64 and a [64, 64] weight. -/
def dense2 (h : Arr F S100000x64) (w : Arr F S64x64) : Arr F S100000x64 :=
  Host.dotGeneral dot_S100000x64_S64x64_S100000x64_1_0_0_1_n_n none h w

/-- The neighbourhood aggregation: row d of the result is the sum, over the edges into d, of the edge's weight times
    the source node's row of `h`. -/
def aggregate (h : Arr F S100000x64) (src dst : IArr S1600000) (w : Arr F S1600000) : Arr F S100000x64 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-- max(a + b, 0), the bias `b` spread over the rows. -/
def biasRelu (a : Arr F S100000x64) (b : Arr F S64) : Arr F S100000x64 :=
  maximumf (addf a (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The classifier's scores H · W + b, the bias spread over the rows. -/
def scores (h : Arr F S100000x64) (w : Arr F S64x40) (b : Arr F S40) : Arr F S100000x40 :=
  addf (Host.dotGeneral dot_S100000x64_S64x40_S100000x40_1_0_0_1_n_n none h w)
    (broadcastInDim S100000x40 ![0, 1] bcast_S1x40_S100000x40_0_1 (broadcastInDim S1x40 ![1] bcast_S40_S1x40_1 b))

/-- Each row's maximum (folded from −∞, and once more joined with −∞). -/
def rowMax (s : Arr F S100000x40) : Arr F S100000 :=
  maximumf (broadcastInDim S100000 ![] bcast_S_S100000 (constant (F := F) S_ .f32 0xFF800000#32))
    (Host.reduce FloatOps.maximumf s (constant (F := F) S_ .f32 0xFF800000#32) reducesTo_S100000x40_S100000_d1 h_S_)

/-- The scores with their row's maximum taken off. -/
def shifted (s : Arr F S100000x40) : Arr F S100000x40 :=
  subf s (broadcastInDim S100000x40 ![0, 1] bcast_S100000x1_S100000x40_0_1
    (broadcastInDim S100000x1 ![0] bcast_S100000_S100000x1_0 (rowMax s)))

/-- The row-wise log-softmax: (s − M) − log Σ exp(s − M). -/
def logSoftmax (s : Arr F S100000x40) : Arr F S100000x40 :=
  subf (shifted s) (broadcastInDim S100000x40 ![0, 1] bcast_S100000x1_S100000x40_0_1
    (Host.log (broadcastInDim S100000x1 ![0] bcast_S100000_S100000x1_0
      (Host.reduceAdd (Host.exp (shifted s)) (constant (F := F) S_ .f32 0x00000000#32) reducesTo_S100000x40_S100000_d1 h_S_))))

/-- The first layer's activations. -/
def hidden1 (x : Arr F S100000x128) (src dst : IArr S1600000) (w : Arr F S1600000) (w1 : Arr F S128x64) (b1 : Arr F S64) : Arr F S100000x64 :=
  biasRelu (aggregate (dense1 x w1) src dst w) b1

/-- The second layer's activations, from the first's. -/
def hidden2 (h1 : Arr F S100000x64) (src dst : IArr S1600000) (w : Arr F S1600000) (w2 : Arr F S64x64) (b2 : Arr F S64) : Arr F S100000x64 :=
  biasRelu (aggregate (dense2 h1 w2) src dst w) b2

end Cert.Spec

end
-- ==== Proof.HostGlue.lean ====
/-
  The kernel program's two stretches of host operations, each started from ANY buffer contents.

  Between its regions the kernel program runs, on the host, the same neighbourhood aggregation the reference runs
  (wrap negative source indices, gather the source rows, scale by the edge weights, add into a zero array at the
  destination rows), and reshapes a bias vector [C] into the one-row array [1, C] the next region reads. So after
  the first stretch the aggregation buffer holds the aggregation (Spec) of the first region's product, and the row
  buffer the first bias as a row; after the second stretch likewise for the second layer, with both of the last
  region's biases as rows. The buffers a stretch does not write keep their contents.
-/
import proofs.«140483_j67920612819568_1_alg».proof.Proof.Gen.KernelIdeal.Launch
import proofs.«140483_j67920612819568_1_alg».proof.Proof.Spec
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

/-! ## The first stretch -/

/-- The aggregation of the first region's product. -/
theorem agg1 (W : Valuation τ sig (Elt F)) :
    after (hostOps1 (F := F)) W (Proc.devRef .tc main_v13)
      = Cert.Spec.aggregate (W (Proc.devRef .tc main_v0)) (W (Proc.devRef .tc main_arg1)) (W (Proc.devRef .tc main_arg2)) (W (Proc.devRef .tc main_arg3)) := by
  after_results_simp <;> rfl

/-- The first bias as a one-row array. -/
theorem row1 (W : Valuation τ sig (Elt F)) :
    after (hostOps1 (F := F)) W (Proc.devRef .tc main_v14) = shapeCast S1x64 (W (Proc.devRef .tc main_arg5)) shapeCasts_S64_S1x64 := by
  after_results_simp <;> rfl

theorem keep1_main_arg1 (W : Valuation τ sig (Elt F)) : after (hostOps1 (F := F)) W (Proc.devRef .tc main_arg1) = W (Proc.devRef .tc main_arg1) := by
  after_results_simp
theorem keep1_main_arg2 (W : Valuation τ sig (Elt F)) : after (hostOps1 (F := F)) W (Proc.devRef .tc main_arg2) = W (Proc.devRef .tc main_arg2) := by
  after_results_simp
theorem keep1_main_arg3 (W : Valuation τ sig (Elt F)) : after (hostOps1 (F := F)) W (Proc.devRef .tc main_arg3) = W (Proc.devRef .tc main_arg3) := by
  after_results_simp
theorem keep1_main_arg6 (W : Valuation τ sig (Elt F)) : after (hostOps1 (F := F)) W (Proc.devRef .tc main_arg6) = W (Proc.devRef .tc main_arg6) := by
  after_results_simp
theorem keep1_main_arg7 (W : Valuation τ sig (Elt F)) : after (hostOps1 (F := F)) W (Proc.devRef .tc main_arg7) = W (Proc.devRef .tc main_arg7) := by
  after_results_simp
theorem keep1_main_arg8 (W : Valuation τ sig (Elt F)) : after (hostOps1 (F := F)) W (Proc.devRef .tc main_arg8) = W (Proc.devRef .tc main_arg8) := by
  after_results_simp
theorem keep1_main_arg9 (W : Valuation τ sig (Elt F)) : after (hostOps1 (F := F)) W (Proc.devRef .tc main_arg9) = W (Proc.devRef .tc main_arg9) := by
  after_results_simp

/-! ## The second stretch -/

/-- The aggregation of the second region's product. -/
theorem agg2 (W : Valuation τ sig (Elt F)) :
    after (hostOps2 (F := F)) W (Proc.devRef .tc main_v28)
      = Cert.Spec.aggregate (W (Proc.devRef .tc main_v15_1)) (W (Proc.devRef .tc main_arg1)) (W (Proc.devRef .tc main_arg2)) (W (Proc.devRef .tc main_arg3)) := by
  after_results_simp <;> rfl

/-- The second bias as a one-row array. -/
theorem row2 (W : Valuation τ sig (Elt F)) :
    after (hostOps2 (F := F)) W (Proc.devRef .tc main_v29) = shapeCast S1x64 (W (Proc.devRef .tc main_arg7)) shapeCasts_S64_S1x64 := by
  after_results_simp <;> rfl

/-- The classifier's bias as a one-row array. -/
theorem row3 (W : Valuation τ sig (Elt F)) :
    after (hostOps2 (F := F)) W (Proc.devRef .tc main_v30) = shapeCast S1x40 (W (Proc.devRef .tc main_arg9)) shapeCasts_S40_S1x40 := by
  after_results_simp <;> rfl

theorem keep2_main_arg8 (W : Valuation τ sig (Elt F)) : after (hostOps2 (F := F)) W (Proc.devRef .tc main_arg8) = W (Proc.devRef .tc main_arg8) := by
  after_results_simp
theorem keep2_main_v15_0 (W : Valuation τ sig (Elt F)) : after (hostOps2 (F := F)) W (Proc.devRef .tc main_v15_0) = W (Proc.devRef .tc main_v15_0) := by
  after_results_simp

end Cert.KernelIdeal.Glue

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.Region0.lean ====
/-
  The first region: X · W₁, row block by row block.

  The node features X [100000, 128] are cut into 20 blocks of 5000 rows; grid point t multiplies block t by the whole
  weight W₁ [128, 64] (a matrix product into a zero accumulator; the change of float format before it is the
  identity over the extended reals) and writes the product back as rows 5000·t … 5000·t + 4999 of the output. Entry
  (r, n) of block t's product is Σₖ X(5000·t + r, k) · W₁(k, n), which is entry (5000·t + r, n) of the whole
  product X · W₁. The 20 blocks tile the output, so after the region the output array IS X · W₁ — whatever the
  arrays hold when the region is entered.
-/
import proofs.«140483_j67920612819568_1_alg».proof.Proof.Gen.KernelIdeal.Frame
import proofs.«140483_j67920612819568_1_alg».proof.Proof.Spec
import proofs.«140483_j67920612819568_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The block index maps over the grid: the features' and the output's block t is row block t, column block 0; the
    weight's is always block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry: Σₖ x₀(r, k) · x₁(k, n). -/
theorem pay_entry (x0 : Vec Ideal S5000x128 .f32) (x1 : Vec Ideal S128x64 .f32) (r : Fin 5000) (n : Fin 64) :
    k0_pay1 x0 x1 (ix2 r n) = ∑ k : Fin 128, x0 (ix2 r k) * x1 (ix2 k n) := by
  unfold k0_pay1
  exact Cert.LibDenseEntry.matmul_plain_zero_apply dot_S5000x128_S128x64_S5000x64_1_0_0_1_n_n rfl rfl rfl rfl rfl rfl none _ _ r n

/-- Block t of the features, at a local index, is the features at row 5000·t + (local row), same column. -/
theorem rows0 (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -⟩ := idx t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block is the whole weight. -/
theorem whole1 (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg4 : S128x64.Idx → EReal) i := by
  obtain ⟨-, -, e2, e3, -⟩ := idx t
  unfold iblk0
  rw [View.read_apply]
  show V c main_arg4 _ = V c main_arg4 _
  refine congrArg (V c main_arg4) ?_
  funext a
  apply Fin.ext
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- What grid point t writes back is block t of the whole product X · W₁. -/
theorem flushed (c : Dev nD) (t : Fin cfg0.N) :
    (dat0 V c).flushed 2 t = ((cfg0.win 2).blk t).view.read (Elt Ideal) (Cert.Spec.dense1 (F := Ideal) (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  refine funext fun (j : S5000x64.Idx) => ?_
  obtain ⟨r, n, rfl⟩ : ∃ (r : Fin 5000) (n : Fin 64), j = ix2 r n := ⟨j 0, j 1, eq_ix2 j⟩
  rw [View.read_apply]
  have hN : t.val < 20 := Nat.lt_of_lt_of_eq t.isLt N_0
  obtain ⟨-, -, -, -, e4, e5⟩ := idx t
  have hemb : ((View.whole main_v0).slice ((win0 2).rect t)).emb (ix2 r n) = ix2 (⟨5000 * t.val + r.val, by omega⟩ : Fin 100000) n := by
    funext a; apply Fin.ext
    match a with
    | ⟨0, _⟩ => show win0_2.index t (0 : Fin 2) * 5000 + 1 * r.val = 5000 * t.val + r.val; rw [e4]; omega
    | ⟨1, _⟩ => show win0_2.index t (1 : Fin 2) * 64 + 1 * n.val = n.val; rw [e5]; omega
  show k0_pay1 (iblk0 V c 0 t) (iblk0 V c 1 t) (ix2 r n) = Cert.Spec.dense1 (F := Ideal) (V c main_arg0) (V c main_arg4) (((View.whole main_v0).slice ((win0 2).rect t)).emb (ix2 r n))
  rw [hemb]
  refine (pay_entry (iblk0 V c 0 t) (iblk0 V c 1 t) r n).trans ?_
  unfold Cert.Spec.dense1
  refine Eq.trans ?_ (Cert.LibDenseEntry.dotGeneral_plain_apply Cert.ReferenceIdeal.dot_S100000x128_S128x64_S100000x64_1_0_0_1_n_n rfl rfl rfl rfl rfl rfl none _ _ _ _ _).symm
  refine Finset.sum_congr rfl fun k _ => ?_
  exact congrArg₂ (· * ·) (rows0 V c t (ix2 r k) (ix2 ⟨5000 * t.val + r.val, by omega⟩ k) rfl rfl) (whole1 V c t (ix2 k n) (ix2 k n) rfl rfl)

/-- Every entry of the output lies in some point's block: row r in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, e4, e5⟩ := idx t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- After the region the output array is X · W₁ of the arrays as the region found them. -/
theorem final (c : Dev nD) : (dat0 V c).arrAt 2 cfg0.N = Cert.Spec.dense1 (F := Ideal) (V c main_arg0) (V c main_arg4) :=
  (dat0 V c).arrAt_eq_of_cover 2 _ (fun t _ => flushed V c t) cover

end Cert.KernelIdeal.Region0

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.SpecEntry.lean ====
/-
  The network's stages read at an entry.

  Over the extended reals each stage of Spec has a closed form entry by entry:
    * a dense product at (p, n) is Σₖ X(p, k) · W(k, n);
    * bias and rectifier at (p, n) is max(A(p, n) + b(n), 0);
    * the scores at (p, n) are Σₖ H(p, k) · W(k, n) + b(n);
    * a row's maximum is the fold of max over the row's 40 entries from −∞ (joining it once more with −∞ changes
      nothing: −∞ is already below the fold);
    * the shifted scores are s(p, n) − M(p), and the log-softmax is that minus log(0 + Σₖ exp(s(p, k) − M(p))).
  The literals (the zero word, the −∞ word) are kept as words: the same word stands on both sides of every
  comparison made with these forms.
-/
import proofs.«140483_j67920612819568_1_alg».proof.Proof.Spec
import proofs.«140483_j67920612819568_1_alg».proof.Proof.LibDenseEntry
import proofs.«140483_j67920612819568_1_alg».proof.Proof.LibSpreadRow
import proofs.«140483_j67920612819568_1_alg».proof.Proof.LibRank2
import Idealize.ShloMosaic.Lib.ValueIdx
import Idealize.ShloMosaic.Lib.Pipeline.Value
import Idealize.ShloMosaic.PureOps.Ideal.Laws

noncomputable section

namespace Cert.Spec

open Cert.ReferenceIdeal Cert.ReferenceIdeal.Facts₀ Cert.ReferenceIdeal.Facts Idealize.ShloMosaic Idealize.ShloMosaic.ValueIdx

theorem dense1_apply (x : Arr Ideal S100000x128) (w : Arr Ideal S128x64) (p : Fin 100000) (n : Fin 64) :
    dense1 x w (ix2 p n) = ∑ k : Fin 128, x (ix2 p k) * w (ix2 k n) := by
  unfold dense1
  exact Cert.LibDenseEntry.dotGeneral_plain_apply dot_S100000x128_S128x64_S100000x64_1_0_0_1_n_n rfl rfl rfl rfl rfl rfl none _ x w p n

theorem dense2_apply (h : Arr Ideal S100000x64) (w : Arr Ideal S64x64) (p : Fin 100000) (n : Fin 64) :
    dense2 h w (ix2 p n) = ∑ k : Fin 64, h (ix2 p k) * w (ix2 k n) := by
  unfold dense2
  exact Cert.LibDenseEntry.dotGeneral_plain_apply dot_S100000x64_S64x64_S100000x64_1_0_0_1_n_n rfl rfl rfl rfl rfl rfl none _ h w p n

theorem biasRelu_apply (a : Arr Ideal S100000x64) (b : Arr Ideal S64) (p : Fin 100000) (n : Fin 64) :
    biasRelu a b (ix2 p n) = max (a (ix2 p n) + b (ix1 n)) (Ideal.ofBits .f32 0x00000000#32) := by
  unfold biasRelu
  rw [maximumf_apply, addf_apply, Cert.LibSpreadRow.spread_row_apply, Cert.LibSpreadRow.spread_const_apply]

theorem scores_apply (h : Arr Ideal S100000x64) (w : Arr Ideal S64x40) (b : Arr Ideal S40) (p : Fin 100000) (n : Fin 40) :
    scores h w b (ix2 p n) = (∑ k : Fin 64, h (ix2 p k) * w (ix2 k n)) + b (ix1 n) := by
  unfold scores
  rw [addf_apply, Cert.LibSpreadRow.spread_row_apply]
  exact congrArg (· + b (ix1 n))
    (Cert.LibDenseEntry.dotGeneral_plain_apply dot_S100000x64_S64x40_S100000x40_1_0_0_1_n_n rfl rfl rfl rfl rfl rfl none _ h w p n)

end Cert.Spec

end
-- ==== Proof.Region1.lean ====
/-
  The second region: bias and rectifier, then H₁ · W₂, row block by row block.

  The aggregated features A [100000, 64] are cut into 20 blocks of 5000 rows. Grid point t adds the bias row to block
  t, takes the maximum with 0 — this is block t of the first layer's activations H₁ = max(A + b, 0), written back as
  rows 5000·t … 5000·t + 4999 of the first output — and multiplies that block by the whole weight W₂ [64, 64],
  written back as the same rows of the second output. Entry (r, n) of the first is max(A(5000·t + r, n) + b(n), 0);
  entry (r, n) of the second is Σₖ H₁(5000·t + r, k) · W₂(k, n). The blocks tile both outputs, so after the region
  they are H₁ and H₁ · W₂ — for any arrays at the region's entry whose bias row is the bias vector as one row.
-/
import proofs.«140483_j67920612819568_1_alg».proof.Proof.Gen.KernelIdeal.Frame
import proofs.«140483_j67920612819568_1_alg».proof.Proof.Spec
import proofs.«140483_j67920612819568_1_alg».proof.Proof.LibDenseEntry
import proofs.«140483_j67920612819568_1_alg».proof.Proof.SpecEntry
import proofs.«140483_j67920612819568_1_alg».proof.Proof.LibSpreadRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- Window 0's block at grid point t is row block t, column block 0. -/
theorem idx1_0 : ∀ t : Fin cfg1.N, win1_0.index t (0 : Fin 2) = t.val ∧ win1_0.index t (1 : Fin 2) = 0 :=
  (by decide +kernel : ∀ t : Fin grid1.N, _)
/-- Window 1's block is block (0, 0) at every grid point. -/
theorem idx1_1 : ∀ t : Fin cfg1.N, win1_1.index t (0 : Fin 2) = 0 ∧ win1_1.index t (1 : Fin 2) = 0 :=
  (by decide +kernel : ∀ t : Fin grid1.N, _)
/-- Window 2's block is block (0, 0) at every grid point. -/
theorem idx1_2 : ∀ t : Fin cfg1.N, win1_2.index t (0 : Fin 2) = 0 ∧ win1_2.index t (1 : Fin 2) = 0 :=
  (by decide +kernel : ∀ t : Fin grid1.N, _)
/-- Window 3's block at grid point t is row block t, column block 0. -/
theorem idx1_3 : ∀ t : Fin cfg1.N, win1_3.index t (0 : Fin 2) = t.val ∧ win1_3.index t (1 : Fin 2) = 0 :=
  (by decide +kernel : ∀ t : Fin grid1.N, _)
/-- Window 4's block at grid point t is row block t, column block 0. -/
theorem idx1_4 : ∀ t : Fin cfg1.N, win1_4.index t (0 : Fin 2) = t.val ∧ win1_4.index t (1 : Fin 2) = 0 :=
  (by decide +kernel : ∀ t : Fin grid1.N, _)

/-- Window 0's block at point t, at a local index, is its array at row 5000·t + (local row), same column. -/
theorem blk1_0 (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v13 : S100000x64.Idx → EReal) i := by
  obtain ⟨e0, e1⟩ := idx1_0 t
  unfold iblk1
  rw [View.read_apply]
  show V c main_v13 _ = V c main_v13 _
  refine congrArg (V c main_v13) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- Window 1's block at point t, at a local index, is its array at the same row, same column. -/
theorem blk1_1 (c : Dev nD) (t : Fin cfg1.N) (y : S1x64.Idx) (i : S1x64.Idx)
    (h0 : (i 0).val = (y 0).val) (h1 : (i 1).val = (y 1).val) :
    (iblk1 V c 1 t : Vec Ideal S1x64 .f32) y = (V c main_v14 : S1x64.Idx → EReal) i := by
  obtain ⟨e0, e1⟩ := idx1_1 t
  unfold iblk1
  rw [View.read_apply]
  show V c main_v14 _ = V c main_v14 _
  refine congrArg (V c main_v14) ?_
  funext a
  apply Fin.ext
  match a with
  | ⟨0, _⟩ => show win1_1.index t (0 : Fin 2) * 1 + 1 * (y 0).val = (i 0).val; rw [e0, h0]; omega
  | ⟨1, _⟩ => show win1_1.index t (1 : Fin 2) * 64 + 1 * (y 1).val = (i 1).val; rw [e1, h1]; omega

/-- Window 2's block at point t, at a local index, is its array at the same row, same column. -/
theorem blk1_2 (c : Dev nD) (t : Fin cfg1.N) (y : S64x64.Idx) (i : S64x64.Idx)
    (h0 : (i 0).val = (y 0).val) (h1 : (i 1).val = (y 1).val) :
    (iblk1 V c 2 t : Vec Ideal S64x64 .f32) y = (V c main_arg6 : S64x64.Idx → EReal) i := by
  obtain ⟨e0, e1⟩ := idx1_2 t
  unfold iblk1
  rw [View.read_apply]
  show V c main_arg6 _ = V c main_arg6 _
  refine congrArg (V c main_arg6) ?_
  funext a
  apply Fin.ext
  match a with
  | ⟨0, _⟩ => show win1_2.index t (0 : Fin 2) * 64 + 1 * (y 0).val = (i 0).val; rw [e0, h0]; omega
  | ⟨1, _⟩ => show win1_2.index t (1 : Fin 2) * 64 + 1 * (y 1).val = (i 1).val; rw [e1, h1]; omega

/-- A local index (r, n) of output window 3's block at point t sits in the array at (5000·t + r, n). -/
theorem emb1_3 (t : Fin cfg1.N) (r : Fin 5000) (n : Fin 64) (h : 5000 * t.val + r.val < 100000) :
    ((View.whole main_v15_0).slice ((win1 3).rect t)).emb (ix2 r n) = ix2 (⟨5000 * t.val + r.val, h⟩ : Fin 100000) n := by
  obtain ⟨e0, e1⟩ := idx1_3 t
  funext a; apply Fin.ext
  match a with
  | ⟨0, _⟩ => show win1_3.index t (0 : Fin 2) * 5000 + 1 * r.val = 5000 * t.val + r.val; rw [e0]; omega
  | ⟨1, _⟩ => show win1_3.index t (1 : Fin 2) * 64 + 1 * n.val = n.val; rw [e1]; omega

/-- Every entry of output window 3's array lies in some point's block: row r in block r / 5000. -/
theorem cover1_3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨e0, e1⟩ := idx1_3 t
  refine ⟨t, flush1_3 t, ?_⟩
  show i ∈ ((View.whole main_v15_0).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 64 ≤ (i 1).val ∧ (i 1).val < win1_3.index t (1 : Fin 2) * 64 + 64; rw [e1]; omega

/-- A local index (r, n) of output window 4's block at point t sits in the array at (5000·t + r, n). -/
theorem emb1_4 (t : Fin cfg1.N) (r : Fin 5000) (n : Fin 64) (h : 5000 * t.val + r.val < 100000) :
    ((View.whole main_v15_1).slice ((win1 4).rect t)).emb (ix2 r n) = ix2 (⟨5000 * t.val + r.val, h⟩ : Fin 100000) n := by
  obtain ⟨e0, e1⟩ := idx1_4 t
  funext a; apply Fin.ext
  match a with
  | ⟨0, _⟩ => show win1_4.index t (0 : Fin 2) * 5000 + 1 * r.val = 5000 * t.val + r.val; rw [e0]; omega
  | ⟨1, _⟩ => show win1_4.index t (1 : Fin 2) * 64 + 1 * n.val = n.val; rw [e1]; omega

/-- Every entry of output window 4's array lies in some point's block: row r in block r / 5000. -/
theorem cover1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨e0, e1⟩ := idx1_4 t
  refine ⟨t, flush1_4 t, ?_⟩
  show i ∈ ((View.whole main_v15_1).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

/-- The body's first value at an entry: max(x₀(r, n) + x₁(0, n), 0). -/
theorem pay1_entry (x0 : Vec Ideal S5000x64 .f32) (x1 : Vec Ideal S1x64 .f32) (r : Fin 5000) (n : Fin 64) :
    k1_pay1 x0 x1 (ix2 r n) = max (x0 (ix2 r n) + x1 (ix2 (0 : Fin 1) n)) (Ideal.ofBits .f32 0x00000000#32) := by
  unfold k1_pay1
  simp only [maximumf_apply, addf_apply, shapeCast_self, broadcast_apply, broadcastTo_1b_ab_apply]
  rfl

/-- The body's second value at an entry: the first value's row r times column n of the weight block. -/
theorem pay2_entry (x0 : Vec Ideal S5000x64 .f32) (x1 : Vec Ideal S1x64 .f32) (x2 : Vec Ideal S64x64 .f32) (r : Fin 5000) (n : Fin 64) :
    k1_pay2 x0 x1 x2 (ix2 r n) = ∑ k : Fin 64, k1_pay1 x0 x1 (ix2 r k) * x2 (ix2 k n) := by
  unfold k1_pay2
  exact Cert.LibDenseEntry.matmul_plain_zero_apply dot_S5000x64_S64x64_S5000x64_1_0_0_1_n_n rfl rfl rfl rfl rfl rfl none _ _ r n

section
variable (c : Dev nD) (b : Cert.Spec.Arr Ideal Cert.ReferenceIdeal.S64)
  (hrow : (V c main_v14 : S1x64.Idx → EReal) = shapeCast S1x64 b shapeCasts_S64_S1x64)
include hrow

/-- At point t the body's first value at (r, n) is the activations max(A + b, 0) at (5000·t + r, n). -/
theorem act_entry (t : Fin cfg1.N) (r : Fin 5000) (n : Fin 64) (h : 5000 * t.val + r.val < 100000) :
    k1_pay1 (iblk1 V c 0 t) (iblk1 V c 1 t) (ix2 r n)
      = Cert.Spec.biasRelu (F := Ideal) (V c main_v13) b (ix2 (⟨5000 * t.val + r.val, h⟩ : Fin 100000) n) := by
  refine (pay1_entry (iblk1 V c 0 t) (iblk1 V c 1 t) r n).trans ?_
  rw [Cert.Spec.biasRelu_apply]
  have e0 := blk1_0 V c t (ix2 r n) (ix2 (⟨5000 * t.val + r.val, h⟩ : Fin 100000) n) rfl rfl
  have e1 : (iblk1 V c 1 t : Vec Ideal S1x64 .f32) (ix2 (0 : Fin 1) n) = b (ix1 n) :=
    (blk1_1 V c t (ix2 (0 : Fin 1) n) (ix2 (0 : Fin 1) n) rfl rfl).trans
      (by rw [hrow]; exact Cert.LibSpreadRow.reshape_row_apply b _ n)
  exact congrArg₂ (fun u v => max (u + v) (Ideal.ofBits .f32 0x00000000#32)) e0 e1

/-- What point t writes back to the first output is block t of the activations. -/
theorem flushed1_3 (t : Fin cfg1.N) :
    (dat1 V c).flushed 3 t = ((cfg1.win 3).blk t).view.read (Elt Ideal) (Cert.Spec.biasRelu (F := Ideal) (V c main_v13) b) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  refine funext fun (j : S5000x64.Idx) => ?_
  obtain ⟨r, n, rfl⟩ : ∃ (r : Fin 5000) (n : Fin 64), j = ix2 r n := ⟨j 0, j 1, eq_ix2 j⟩
  rw [View.read_apply]
  have hN : t.val < 20 := Nat.lt_of_lt_of_eq t.isLt N_1
  show k1_pay1 (iblk1 V c 0 t) (iblk1 V c 1 t) (ix2 r n)
    = Cert.Spec.biasRelu (F := Ideal) (V c main_v13) b (((View.whole main_v15_0).slice ((win1 3).rect t)).emb (ix2 r n))
  rw [emb1_3 t r n (by omega)]
  exact act_entry V c b hrow t r n _

/-- What point t writes back to the second output is block t of the activations times W₂. -/
theorem flushed1_4 (t : Fin cfg1.N) :
    (dat1 V c).flushed 4 t = ((cfg1.win 4).blk t).view.read (Elt Ideal)
      (Cert.Spec.dense2 (F := Ideal) (Cert.Spec.biasRelu (F := Ideal) (V c main_v13) b) (V c main_arg6)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S64x64) hz]
  refine funext fun (j : S5000x64.Idx) => ?_
  obtain ⟨r, n, rfl⟩ : ∃ (r : Fin 5000) (n : Fin 64), j = ix2 r n := ⟨j 0, j 1, eq_ix2 j⟩
  rw [View.read_apply]
  have hN : t.val < 20 := Nat.lt_of_lt_of_eq t.isLt N_1
  show k1_pay2 (iblk1 V c 0 t) (iblk1 V c 1 t) (iblk1 V c 2 t) (ix2 r n)
    = Cert.Spec.dense2 (F := Ideal) (Cert.Spec.biasRelu (F := Ideal) (V c main_v13) b) (V c main_arg6)
        (((View.whole main_v15_1).slice ((win1 4).rect t)).emb (ix2 r n))
  rw [emb1_4 t r n (by omega)]
  refine (pay2_entry (iblk1 V c 0 t) (iblk1 V c 1 t) (iblk1 V c 2 t) r n).trans ?_
  rw [Cert.Spec.dense2_apply]
  exact Finset.sum_congr rfl fun k _ =>
    congrArg₂ (· * ·) (act_entry V c b hrow t r k _) (blk1_2 V c t (ix2 k n) (ix2 k n) rfl rfl)

/-- After the region the first output is the first layer's activations max(A + b, 0). -/
theorem final1_3 : (dat1 V c).arrAt 3 cfg1.N = Cert.Spec.biasRelu (F := Ideal) (V c main_v13) b :=
  (dat1 V c).arrAt_eq_of_cover 3 _ (fun t _ => flushed1_3 V c b hrow t) cover1_3

/-- After the region the second output is the activations times W₂. -/
theorem final1_4 : (dat1 V c).arrAt 4 cfg1.N
    = Cert.Spec.dense2 (F := Ideal) (Cert.Spec.biasRelu (F := Ideal) (V c main_v13) b) (V c main_arg6) :=
  (dat1 V c).arrAt_eq_of_cover 4 _ (fun t _ => flushed1_4 V c b hrow t) cover1_4

end

end Cert.KernelIdeal.Region1

end
-- ==== Proof.LibSpreadColumn.lean ====
/-
  A vector spread as a column, read at an index (over any element type).

  A length-N vector v becomes an [N, 1] column by a broadcast along a new trailing axis, and a column is spread
  over C lanes by a second broadcast; entry (p, q) of the result is v(p) either way round: the column at (p, ·) is
  v(p), and the spread column at (p, q) is the column at (p, 0). This is how a per-row statistic (a row's maximum,
  a row's sum) is put back beside the row's entries.
-/
import Idealize.ShloMosaic.Lib.ValueIdx
import Idealize.ShloMosaic.Lib.Pipeline.Value

noncomputable section

namespace Cert.LibSpreadColumn

open Idealize.ShloMosaic Idealize.ShloMosaic.ValueIdx

variable {N C : ℕ} {α : Type}

/-- A vector made a column by a broadcast along a new trailing axis: entry (p, u) is v(p). -/
theorem vec_col_apply (v : (⟨1, ![N]⟩ : Shape).Idx → α)
    (h : (⟨1, ![N]⟩ : Shape).BroadcastsInDim ⟨2, ![N, 1]⟩ ![0]) (p : Fin N) (u : Fin 1) :
    broadcastInDim ⟨2, ![N, 1]⟩ ![0] h v (ix2 p u) = v (ix1 p) := by
  refine broadcastInDim_apply ![0] h v (ix2 p u) (ix1 p) fun a => ?_
  match a with
  | ⟨0, _⟩ =>
    show p.val = if N = 1 then 0 else p.val
    split
    · have := p.isLt; omega
    · rfl

/-- A column spread over C lanes: entry (p, q) is the column at (p, 0). -/
theorem col_spread_apply (c : (⟨2, ![N, 1]⟩ : Shape).Idx → α)
    (h : (⟨2, ![N, 1]⟩ : Shape).BroadcastsInDim ⟨2, ![N, C]⟩ ![0, 1]) (p : Fin N) (q : Fin C) :
    broadcastInDim ⟨2, ![N, C]⟩ ![0, 1] h c (ix2 p q) = c (ix2 p (0 : Fin 1)) := by
  refine broadcastInDim_apply ![0, 1] h c (ix2 p q) (ix2 p (0 : Fin 1)) fun a => ?_
  match a with
  | ⟨0, _⟩ =>
    show p.val = if N = 1 then 0 else p.val
    split
    · have := p.isLt; omega
    · rfl
  | ⟨1, _⟩ => show (0 : ℕ) = if (1 : ℕ) = 1 then 0 else q.val; rfl

/-- A vector made a column and spread over C lanes: entry (p, q) is v(p). -/
theorem spread_col_apply (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 v) (ix2 p q) = v (ix1 p) :=
  (col_spread_apply _ h2 p q).trans (vec_col_apply v h1 p 0)

end Cert.LibSpreadColumn

end
-- ==== Proof.SpecSoftmax.lean ====
/-
  The row-wise log-softmax of the scores, read at an entry.

  For a row L of 40 scores let M be the fold of max over the row from the −∞ word. The log-softmax of the row at n is
  (L(n) − M) − log Σₖ exp(L(k) − M). Spec's log-softmax at (p, n) is that row function of row p of the scores: the row
  maximum is the host's max-reduce (joined once more with −∞, which is already below the fold), spread back as a
  column; the sum is the host's add-reduce from the zero word.
-/
import proofs.«140483_j67920612819568_1_alg».proof.Proof.SpecEntry
import proofs.«140483_j67920612819568_1_alg».proof.Proof.LibSpreadColumn

noncomputable section

namespace Cert.Spec

open Cert.ReferenceIdeal Cert.ReferenceIdeal.Facts₀ Cert.ReferenceIdeal.Facts Idealize.ShloMosaic Idealize.ShloMosaic.ValueIdx

/-- The log-softmax of one row of 40 extended reals, at n. -/
def lsmRow (L : Fin 40 → EReal) (n : Fin 40) : EReal :=
  (L n - (Finset.univ : Finset (Fin 40)).fold max (Ideal.ofBits .f32 0xFF800000#32) L)
    - Ideal.log (∑ k : Fin 40, Ideal.exp (L k - (Finset.univ : Finset (Fin 40)).fold max (Ideal.ofBits .f32 0xFF800000#32) L))

/-- The scores' row reduction as a reduction over the one axis 1 (the index a coordinate is put back at is computed
    from this fact). -/
theorem red40 : S100000x40.Reduces [1] S100000 := by decide

/-- A row's maximum: the fold of max over the row's 40 entries from the −∞ word. -/
theorem rowMax_apply (s : Arr Ideal S100000x40) (p : Fin 100000) :
    rowMax s (ix1 p)
      = (Finset.univ : Finset (Fin 40)).fold max (Ideal.ofBits .f32 0xFF800000#32) (fun k => s (ix2 p k)) := by
  unfold rowMax
  rw [maximumf_apply, Cert.LibSpreadRow.spread_const_apply]
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have h : Host.reduce FloatOps.maximumf s (constant (F := Ideal) S_ .f32 0xFF800000#32) reducesTo_S100000x40_S100000_d1 h_S_ (ix1 p)
      = (Finset.univ : Finset (Fin 40)).fold max (Ideal.ofBits .f32 0xFF800000#32) (fun k => s (ix2 p k)) :=
    (Host.reduce_eq_fold_single FloatOps.maximumf s _ reducesTo_S100000x40_S100000_d1 red40 h_S_ (ix1 p)).trans
      (congrArg ((Finset.univ : Finset (Fin 40)).fold max (Ideal.ofBits .f32 0xFF800000#32))
        (funext fun k => congrArg s (Cert.LibRank2.lift_last red40 p k)))
  rw [h]
  exact max_eq_right ((Finset.le_fold_max _).mpr (Or.inl le_rfl))

/-- The shifted scores: the entry minus its row's maximum. -/
theorem shifted_apply (s : Arr Ideal S100000x40) (p : Fin 100000) (n : Fin 40) :
    shifted s (ix2 p n) = s (ix2 p n) - rowMax s (ix1 p) := by
  unfold shifted
  rw [subf_apply, Cert.LibSpreadColumn.spread_col_apply]

/-- The host's logarithm of an array at an index is the logarithm of the element. -/
theorem hostLog_at {s : Shape} {φ : FTy} (v : FVec Ideal s φ) (i : s.Idx) : Host.log v i = Ideal.log (v i) := rfl

/-- The row's sum of exponentials of shifted scores: the host's add-reduce from the zero word. -/
theorem expSum_apply (s : Arr Ideal S100000x40) (p : Fin 100000) :
    Host.reduceAdd (Host.exp (shifted s)) (constant (F := Ideal) S_ .f32 0x00000000#32) reducesTo_S100000x40_S100000_d1 h_S_ (ix1 p)
      = ∑ k : Fin 40, Ideal.exp (shifted s (ix2 p k)) := by
  refine (Ideal.hostReduceAdd_single reducesTo_S100000x40_S100000_d1 red40 _ _ (ix1 p)).trans ?_
  rw [show (constant (F := Ideal) S_ .f32 0x00000000#32) (Shape.Idx.first h_S_) = (0 : EReal) from Ideal.ofBits_zero_f32, zero_add]
  exact Finset.sum_congr rfl fun k _ => congrArg (fun j => Ideal.exp (shifted s j)) (Cert.LibRank2.lift_last red40 p k)

/-- The log-softmax: the shifted entry minus the log of the row's sum of exponentials of shifted entries. -/
theorem logSoftmax_apply (s : Arr Ideal S100000x40) (p : Fin 100000) (n : Fin 40) :
    logSoftmax s (ix2 p n)
      = shifted s (ix2 p n) - Ideal.log (∑ k : Fin 40, Ideal.exp (shifted s (ix2 p k))) := by
  unfold logSoftmax
  rw [subf_apply, Cert.LibSpreadColumn.col_spread_apply, hostLog_at, Cert.LibSpreadColumn.vec_col_apply, expSum_apply]

/-- Spec's log-softmax at (p, n) is the row function of row p of the scores. -/
theorem logSoftmax_row (s : Arr Ideal S100000x40) (p : Fin 100000) (n : Fin 40) :
    logSoftmax s (ix2 p n) = lsmRow (fun k => s (ix2 p k)) n := by
  rw [logSoftmax_apply]
  unfold lsmRow
  simp only [shifted_apply, rowMax_apply]

end Cert.Spec

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.Region2.lean ====
/-
  The third region: bias and rectifier, the classifier's scores, and their row-wise log-softmax, row block by row block.

  The second aggregation A [100000, 64] is cut into 20 blocks of 5000 rows. Grid point t forms block t of the second
  layer's activations H₂ = max(A + b₂, 0), multiplies it by the whole classifier weight [64, 40] and adds the
  classifier's bias row — block t of the scores — and takes each row's log-softmax: with M the row's maximum,
  (s − M) − log Σ exp(s − M). The three results are written back as rows 5000·t … 5000·t + 4999 of the three outputs.
  A row's log-softmax depends on that row of the scores only, and block t's rows are whole rows of the scores, so
  the three outputs after the region are H₂, the scores, and the scores' row-wise log-softmax — for any arrays at the
  region's entry whose two bias rows are the bias vectors as one row each.
-/
import proofs.«140483_j67920612819568_1_alg».proof.Proof.Gen.KernelIdeal.Frame
import proofs.«140483_j67920612819568_1_alg».proof.Proof.Spec
import proofs.«140483_j67920612819568_1_alg».proof.Proof.LibDenseEntry
import proofs.«140483_j67920612819568_1_alg».proof.Proof.SpecEntry
import proofs.«140483_j67920612819568_1_alg».proof.Proof.SpecSoftmax
import proofs.«140483_j67920612819568_1_alg».proof.Proof.LibSpreadRow
import proofs.«140483_j67920612819568_1_alg».proof.Proof.LibRank2
import proofs.«140483_j67920612819568_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- Window 0's block at grid point t is row block t, column block 0. -/
theorem idx2_0 : ∀ t : Fin cfg2.N, win2_0.index t (0 : Fin 2) = t.val ∧ win2_0.index t (1 : Fin 2) = 0 :=
  (by decide +kernel : ∀ t : Fin grid2.N, _)
/-- Window 1's block is block (0, 0) at every grid point. -/
theorem idx2_1 : ∀ t : Fin cfg2.N, win2_1.index t (0 : Fin 2) = 0 ∧ win2_1.index t (1 : Fin 2) = 0 :=
  (by decide +kernel : ∀ t : Fin grid2.N, _)
/-- Window 2's block is block (0, 0) at every grid point. -/
theorem idx2_2 : ∀ t : Fin cfg2.N, win2_2.index t (0 : Fin 2) = 0 ∧ win2_2.index t (1 : Fin 2) = 0 :=
  (by decide +kernel : ∀ t : Fin grid2.N, _)
/-- Window 3's block is block (0, 0) at every grid point. -/
theorem idx2_3 : ∀ t : Fin cfg2.N, win2_3.index t (0 : Fin 2) = 0 ∧ win2_3.index t (1 : Fin 2) = 0 :=
  (by decide +kernel : ∀ t : Fin grid2.N, _)
/-- Window 4's block at grid point t is row block t, column block 0. -/
theorem idx2_4 : ∀ t : Fin cfg2.N, win2_4.index t (0 : Fin 2) = t.val ∧ win2_4.index t (1 : Fin 2) = 0 :=
  (by decide +kernel : ∀ t : Fin grid2.N, _)
/-- Window 5's block at grid point t is row block t, column block 0. -/
theorem idx2_5 : ∀ t : Fin cfg2.N, win2_5.index t (0 : Fin 2) = t.val ∧ win2_5.index t (1 : Fin 2) = 0 :=
  (by decide +kernel : ∀ t : Fin grid2.N, _)
/-- Window 6's block at grid point t is row block t, column block 0. -/
theorem idx2_6 : ∀ t : Fin cfg2.N, win2_6.index t (0 : Fin 2) = t.val ∧ win2_6.index t (1 : Fin 2) = 0 :=
  (by decide +kernel : ∀ t : Fin grid2.N, _)

/-- Window 0's block at point t, at a local index, is its array at row 5000·t + (local row), same column. -/
theorem blk2_0 (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v28 : S100000x64.Idx → EReal) i := by
  obtain ⟨e0, e1⟩ := idx2_0 t
  unfold iblk2
  rw [View.read_apply]
  show V c main_v28 _ = V c main_v28 _
  refine congrArg (V c main_v28) ?_
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- Window 1's block at point t, at a local index, is its array at the same row, same column. -/
theorem blk2_1 (c : Dev nD) (t : Fin cfg2.N) (y : S1x64.Idx) (i : S1x64.Idx)
    (h0 : (i 0).val = (y 0).val) (h1 : (i 1).val = (y 1).val) :
    (iblk2 V c 1 t : Vec Ideal S1x64 .f32) y = (V c main_v29 : S1x64.Idx → EReal) i := by
  obtain ⟨e0, e1⟩ := idx2_1 t
  unfold iblk2
  rw [View.read_apply]
  show V c main_v29 _ = V c main_v29 _
  refine congrArg (V c main_v29) ?_
  funext a
  apply Fin.ext
  match a with
  | ⟨0, _⟩ => show win2_1.index t (0 : Fin 2) * 1 + 1 * (y 0).val = (i 0).val; rw [e0, h0]; omega
  | ⟨1, _⟩ => show win2_1.index t (1 : Fin 2) * 64 + 1 * (y 1).val = (i 1).val; rw [e1, h1]; omega

/-- Window 2's block at point t, at a local index, is its array at the same row, same column. -/
theorem blk2_2 (c : Dev nD) (t : Fin cfg2.N) (y : S64x40.Idx) (i : S64x40.Idx)
    (h0 : (i 0).val = (y 0).val) (h1 : (i 1).val = (y 1).val) :
    (iblk2 V c 2 t : Vec Ideal S64x40 .f32) y = (V c main_arg8 : S64x40.Idx → EReal) i := by
  obtain ⟨e0, e1⟩ := idx2_2 t
  unfold iblk2
  rw [View.read_apply]
  show V c main_arg8 _ = V c main_arg8 _
  refine congrArg (V c main_arg8) ?_
  funext a
  apply Fin.ext
  match a with
  | ⟨0, _⟩ => show win2_2.index t (0 : Fin 2) * 64 + 1 * (y 0).val = (i 0).val; rw [e0, h0]; omega
  | ⟨1, _⟩ => show win2_2.index t (1 : Fin 2) * 40 + 1 * (y 1).val = (i 1).val; rw [e1, h1]; omega

/-- Window 3's block at point t, at a local index, is its array at the same row, same column. -/
theorem blk2_3 (c : Dev nD) (t : Fin cfg2.N) (y : S1x40.Idx) (i : S1x40.Idx)
    (h0 : (i 0).val = (y 0).val) (h1 : (i 1).val = (y 1).val) :
    (iblk2 V c 3 t : Vec Ideal S1x40 .f32) y = (V c main_v30 : S1x40.Idx → EReal) i := by
  obtain ⟨e0, e1⟩ := idx2_3 t
  unfold iblk2
  rw [View.read_apply]
  show V c main_v30 _ = V c main_v30 _
  refine congrArg (V c main_v30) ?_
  funext a
  apply Fin.ext
  match a with
  | ⟨0, _⟩ => show win2_3.index t (0 : Fin 2) * 1 + 1 * (y 0).val = (i 0).val; rw [e0, h0]; omega
  | ⟨1, _⟩ => show win2_3.index t (1 : Fin 2) * 40 + 1 * (y 1).val = (i 1).val; rw [e1, h1]; omega

/-- A local index (r, n) of output window 4's block at point t sits in the array at (5000·t + r, n). -/
theorem emb2_4 (t : Fin cfg2.N) (r : Fin 5000) (n : Fin 64) (h : 5000 * t.val + r.val < 100000) :
    ((View.whole main_v31_0).slice ((win2 4).rect t)).emb (ix2 r n) = ix2 (⟨5000 * t.val + r.val, h⟩ : Fin 100000) n := by
  obtain ⟨e0, e1⟩ := idx2_4 t
  funext a; apply Fin.ext
  match a with
  | ⟨0, _⟩ => show win2_4.index t (0 : Fin 2) * 5000 + 1 * r.val = 5000 * t.val + r.val; rw [e0]; omega
  | ⟨1, _⟩ => show win2_4.index t (1 : Fin 2) * 64 + 1 * n.val = n.val; rw [e1]; omega

/-- Every entry of output window 4's array lies in some point's block: row r in block r / 5000. -/
theorem cover2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 5000 := ⟨⟨(i 0).val / 5000, by rw [show cfg2.N = 20 from N_2]; omega⟩, rfl⟩
  obtain ⟨e0, e1⟩ := idx2_4 t
  refine ⟨t, flush2_4 t, ?_⟩
  show i ∈ ((View.whole main_v31_0).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 64 ≤ (i 1).val ∧ (i 1).val < win2_4.index t (1 : Fin 2) * 64 + 64; rw [e1]; omega

/-- A local index (r, n) of output window 5's block at point t sits in the array at (5000·t + r, n). -/
theorem emb2_5 (t : Fin cfg2.N) (r : Fin 5000) (n : Fin 40) (h : 5000 * t.val + r.val < 100000) :
    ((View.whole main_v31_1).slice ((win2 5).rect t)).emb (ix2 r n) = ix2 (⟨5000 * t.val + r.val, h⟩ : Fin 100000) n := by
  obtain ⟨e0, e1⟩ := idx2_5 t
  funext a; apply Fin.ext
  match a with
  | ⟨0, _⟩ => show win2_5.index t (0 : Fin 2) * 5000 + 1 * r.val = 5000 * t.val + r.val; rw [e0]; omega
  | ⟨1, _⟩ => show win2_5.index t (1 : Fin 2) * 40 + 1 * n.val = n.val; rw [e1]; omega

/-- Every entry of output window 5's array lies in some point's block: row r in block r / 5000. -/
theorem cover2_5 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  obtain ⟨t, ht⟩ : ∃ t : Fin cfg2.N, t.val = (i 0).val / 5000 := ⟨⟨(i 0).val / 5000, by rw [show cfg2.N = 20 from N_2]; omega⟩, rfl⟩
  obtain ⟨e0, e1⟩ := idx2_5 t
  refine ⟨t, flush2_5 t, ?_⟩
  show i ∈ ((View.whole main_v31_1).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 40 ≤ (i 1).val ∧ (i 1).val < win2_5.index t (1 : Fin 2) * 40 + 40; rw [e1]; omega

/-- A local index (r, n) of output window 6's block at point t sits in the array at (5000·t + r, n). -/
theorem emb2_6 (t : Fin cfg2.N) (r : Fin 5000) (n : Fin 40) (h : 5000 * t.val + r.val < 100000) :
    ((View.whole main_v31_2).slice ((win2 6).rect t)).emb (ix2 r n) = ix2 (⟨5000 * t.val + r.val, h⟩ : Fin 100000) n := by
  obtain ⟨e0, e1⟩ := idx2_6 t
  funext a; apply Fin.ext
  match a with
  | ⟨0, _⟩ => show win2_6.index t (0 : Fin 2) * 5000 + 1 * r.val = 5000 * t.val + r.val; rw [e0]; omega
  | ⟨1, _⟩ => show win2_6.index t (1 : Fin 2) * 40 + 1 * n.val = n.val; rw [e1]; omega

/-- Every entry of output window 6's array lies in some point's block: row r in block r / 5000. -/
theorem cover2_6 (i : S100000x40.Idx) : ∃ t : Fin cfg2.N, (cfg2.win 6).flush t = true ∧ i ∈ ((cfg2.win 6).blk t).view.set := by
  have hi0 : (i 0).val < 100000 := (i 0).isLt
  have hi1 : (i 1).val < 40 := (i 1).isLt
  obtain ⟨t, ht⟩ : ∃ t : Fin cfg2.N, t.val = (i 0).val / 5000 := ⟨⟨(i 0).val / 5000, by rw [show cfg2.N = 20 from N_2]; omega⟩, rfl⟩
  obtain ⟨e0, e1⟩ := idx2_6 t
  refine ⟨t, flush2_6 t, ?_⟩
  show i ∈ ((View.whole main_v31_2).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 40 ≤ (i 1).val ∧ (i 1).val < win2_6.index t (1 : Fin 2) * 40 + 40; rw [e1]; omega

/-- An exponential of a vector at an index is the exponential of the element. -/
theorem exp_at {s : Shape} {φ : FTy} (v : FVec Ideal s φ) (i : s.Idx) : exp v i = Ideal.exp (v i) := rfl
/-- A logarithm of a vector at an index is the logarithm of the element. -/
theorem log_at {s : Shape} {φ : FTy} (v : FVec Ideal s φ) (i : s.Idx) : log v i = Ideal.log (v i) := rfl

/-- The body's first value at an entry: max(x₀(r, n) + x₁(0, n), 0). -/
theorem pay1_entry (x0 : Vec Ideal S5000x64 .f32) (x1 : Vec Ideal S1x64 .f32) (r : Fin 5000) (n : Fin 64) :
    k2_pay1 x0 x1 (ix2 r n) = max (x0 (ix2 r n) + x1 (ix2 (0 : Fin 1) n)) (Ideal.ofBits .f32 0x00000000#32) := by
  unfold k2_pay1
  simp only [maximumf_apply, addf_apply, shapeCast_self, broadcast_apply, broadcastTo_1b_ab_apply]
  rfl

/-- The body's second value at an entry: the first value's row r times column n of the weight block, plus the bias
    row at n. -/
theorem pay2_entry (x0 : Vec Ideal S5000x64 .f32) (x1 : Vec Ideal S1x64 .f32) (x2 : Vec Ideal S64x40 .f32)
    (x3 : Vec Ideal S1x40 .f32) (r : Fin 5000) (n : Fin 40) :
    k2_pay2 x0 x1 x2 x3 (ix2 r n)
      = (∑ k : Fin 64, k2_pay1 x0 x1 (ix2 r k) * x2 (ix2 k n)) + x3 (ix2 (0 : Fin 1) n) := by
  unfold k2_pay2
  simp only [addf_apply, shapeCast_self, broadcastTo_1b_ab_apply]
  exact congrArg (· + x3 (ix2 (0 : Fin 1) n))
    (Cert.LibDenseEntry.matmul_plain_zero_apply dot_S5000x64_S64x40_S5000x40_1_0_0_1_n_n rfl rfl rfl rfl rfl rfl none _ _ r n)

/-- The body's third value at an entry: the log-softmax of row r of the second value, at n. (The lane maximum and the
    lane sum are named first and read at row r; the rest is pointwise.) -/
theorem pay3_entry (x0 : Vec Ideal S5000x64 .f32) (x1 : Vec Ideal S1x64 .f32) (x2 : Vec Ideal S64x40 .f32)
    (x3 : Vec Ideal S1x40 .f32) (r : Fin 5000) (n : Fin 40) :
    k2_pay3 x0 x1 x2 x3 (ix2 r n) = Cert.Spec.lsmRow (fun k => k2_pay2 x0 x1 x2 x3 (ix2 r k)) n := by
  unfold k2_pay3 Cert.Spec.lsmRow
  simp only [subf_apply, exp_at, log_at, Cert.LibColumn.broadcastTo_a1_ab_apply, Cert.LibColumn.shapeCast_a_a1_apply]
  generalize hMR : multiReduction FKind.maximumf [1] S5000 (k2_pay2 x0 x1 x2 x3) 0xFF800000#32 reduces_S5000x40_S5000 (.inl rfl) rfl = MR
  have hM : MR (ix1 r) = (Finset.univ : Finset (Fin 40)).fold max (Ideal.ofBits .f32 0xFF800000#32)
      (fun k => k2_pay2 x0 x1 x2 x3 (ix2 r k)) := by
    rw [← hMR]; exact Cert.LibRank2.max_last _ _ _ _ _ r
  generalize hSR : multiReduction FKind.add [1] S5000
      (exp (subf (k2_pay2 x0 x1 x2 x3) (broadcastTo S5000x40 (shapeCast S5000x1 MR shapeCasts_S5000_S5000x1) broadcasts_S5000x1_S5000x40)))
      0x00000000#32 reduces_S5000x40_S5000 (.inl rfl) rfl = SR
  have hS : SR (ix1 r) = ∑ k : Fin 40, Ideal.exp (k2_pay2 x0 x1 x2 x3 (ix2 r k) - MR (ix1 r)) := by
    rw [← hSR]
    refine (Cert.LibRank2.sum_last _ _ _ _ _ r).trans (Finset.sum_congr rfl fun k _ => ?_)
    simp only [exp_at, subf_apply, Cert.LibColumn.broadcastTo_a1_ab_apply, Cert.LibColumn.shapeCast_a_a1_apply]
  rw [hS, hM]

section
variable (c : Dev nD) (b2 : Cert.Spec.Arr Ideal Cert.ReferenceIdeal.S64) (bl : Cert.Spec.Arr Ideal Cert.ReferenceIdeal.S40)
  (hrow2 : (V c main_v29 : S1x64.Idx → EReal) = shapeCast S1x64 b2 shapeCasts_S64_S1x64)
  (hrow3 : (V c main_v30 : S1x40.Idx → EReal) = shapeCast S1x40 bl shapeCasts_S40_S1x40)

include hrow2 in
/-- At point t the body's first value at (r, n) is the activations max(A + b₂, 0) at (5000·t + r, n). -/
theorem act_entry (t : Fin cfg2.N) (r : Fin 5000) (n : Fin 64) (h : 5000 * t.val + r.val < 100000) :
    k2_pay1 (iblk2 V c 0 t) (iblk2 V c 1 t) (ix2 r n)
      = Cert.Spec.biasRelu (F := Ideal) (V c main_v28) b2 (ix2 (⟨5000 * t.val + r.val, h⟩ : Fin 100000) n) := by
  refine (pay1_entry (iblk2 V c 0 t) (iblk2 V c 1 t) r n).trans ?_
  rw [Cert.Spec.biasRelu_apply]
  have e0 := blk2_0 V c t (ix2 r n) (ix2 (⟨5000 * t.val + r.val, h⟩ : Fin 100000) n) rfl rfl
  have e1 : (iblk2 V c 1 t : Vec Ideal S1x64 .f32) (ix2 (0 : Fin 1) n) = b2 (ix1 n) :=
    (blk2_1 V c t (ix2 (0 : Fin 1) n) (ix2 (0 : Fin 1) n) rfl rfl).trans
      (by rw [hrow2]; exact Cert.LibSpreadRow.reshape_row_apply b2 _ n)
  exact congrArg₂ (fun u v => max (u + v) (Ideal.ofBits .f32 0x00000000#32)) e0 e1

include hrow2 hrow3 in
/-- At point t the body's second value at (r, n) is the scores at (5000·t + r, n). -/
theorem score_entry (t : Fin cfg2.N) (r : Fin 5000) (n : Fin 40) (h : 5000 * t.val + r.val < 100000) :
    k2_pay2 (iblk2 V c 0 t) (iblk2 V c 1 t) (iblk2 V c 2 t) (iblk2 V c 3 t) (ix2 r n)
      = Cert.Spec.scores (F := Ideal) (Cert.Spec.biasRelu (F := Ideal) (V c main_v28) b2) (V c main_arg8) bl
          (ix2 (⟨5000 * t.val + r.val, h⟩ : Fin 100000) n) := by
  refine (pay2_entry (iblk2 V c 0 t) (iblk2 V c 1 t) (iblk2 V c 2 t) (iblk2 V c 3 t) r n).trans ?_
  rw [Cert.Spec.scores_apply]
  have e3 : (iblk2 V c 3 t : Vec Ideal S1x40 .f32) (ix2 (0 : Fin 1) n) = bl (ix1 n) :=
    (blk2_3 V c t (ix2 (0 : Fin 1) n) (ix2 (0 : Fin 1) n) rfl rfl).trans
      (by rw [hrow3]; exact Cert.LibSpreadRow.reshape_row_apply bl _ n)
  exact congrArg₂ (· + ·)
    (Finset.sum_congr rfl fun k _ =>
      congrArg₂ (· * ·) (act_entry V c b2 hrow2 t r k h) (blk2_2 V c t (ix2 k n) (ix2 k n) rfl rfl)) e3

include hrow2 hrow3 in
/-- At point t the body's third value at (r, n) is the scores' log-softmax at (5000·t + r, n). -/
theorem logp_entry (t : Fin cfg2.N) (r : Fin 5000) (n : Fin 40) (h : 5000 * t.val + r.val < 100000) :
    k2_pay3 (iblk2 V c 0 t) (iblk2 V c 1 t) (iblk2 V c 2 t) (iblk2 V c 3 t) (ix2 r n)
      = Cert.Spec.logSoftmax (F := Ideal)
          (Cert.Spec.scores (F := Ideal) (Cert.Spec.biasRelu (F := Ideal) (V c main_v28) b2) (V c main_arg8) bl)
          (ix2 (⟨5000 * t.val + r.val, h⟩ : Fin 100000) n) := by
  refine (pay3_entry (iblk2 V c 0 t) (iblk2 V c 1 t) (iblk2 V c 2 t) (iblk2 V c 3 t) r n).trans ?_
  rw [Cert.Spec.logSoftmax_row]
  exact congrArg (fun L => Cert.Spec.lsmRow L n) (funext fun k => score_entry V c b2 bl hrow2 hrow3 t r k h)

include hrow2 in
/-- What point t writes back to the first output is block t of the activations. -/
theorem flushed2_4 (t : Fin cfg2.N) :
    (dat2 V c).flushed 4 t = ((cfg2.win 4).blk t).view.read (Elt Ideal) (Cert.Spec.biasRelu (F := Ideal) (V c main_v28) b2) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x64) hz, View.ld_unit_zero (S := S64x40) hz, View.ld_unit_zero (S := S1x40) hz]
  refine funext fun (j : S5000x64.Idx) => ?_
  obtain ⟨r, n, rfl⟩ : ∃ (r : Fin 5000) (n : Fin 64), j = ix2 r n := ⟨j 0, j 1, eq_ix2 j⟩
  rw [View.read_apply]
  have hN : t.val < 20 := Nat.lt_of_lt_of_eq t.isLt N_2
  show k2_pay1 (iblk2 V c 0 t) (iblk2 V c 1 t) (ix2 r n)
    = Cert.Spec.biasRelu (F := Ideal) (V c main_v28) b2 (((View.whole main_v31_0).slice ((win2 4).rect t)).emb (ix2 r n))
  rw [emb2_4 t r n (by omega)]
  exact act_entry V c b2 hrow2 t r n _

include hrow2 hrow3 in
/-- What point t writes back to the second output is block t of the scores. -/
theorem flushed2_5 (t : Fin cfg2.N) :
    (dat2 V c).flushed 5 t = ((cfg2.win 5).blk t).view.read (Elt Ideal)
      (Cert.Spec.scores (F := Ideal) (Cert.Spec.biasRelu (F := Ideal) (V c main_v28) b2) (V c main_arg8) bl) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz, View.ld_unit_zero (S := S64x40) hz, View.ld_unit_zero (S := S1x40) hz]
  refine funext fun (j : S5000x40.Idx) => ?_
  obtain ⟨r, n, rfl⟩ : ∃ (r : Fin 5000) (n : Fin 40), j = ix2 r n := ⟨j 0, j 1, eq_ix2 j⟩
  rw [View.read_apply]
  have hN : t.val < 20 := Nat.lt_of_lt_of_eq t.isLt N_2
  show k2_pay2 (iblk2 V c 0 t) (iblk2 V c 1 t) (iblk2 V c 2 t) (iblk2 V c 3 t) (ix2 r n)
    = Cert.Spec.scores (F := Ideal) (Cert.Spec.biasRelu (F := Ideal) (V c main_v28) b2) (V c main_arg8) bl
        (((View.whole main_v31_1).slice ((win2 5).rect t)).emb (ix2 r n))
  rw [emb2_5 t r n (by omega)]
  exact score_entry V c b2 bl hrow2 hrow3 t r n _

include hrow2 hrow3 in
/-- What point t writes back to the third output is block t of the scores' log-softmax. -/
theorem flushed2_6 (t : Fin cfg2.N) :
    (dat2 V c).flushed 6 t = ((cfg2.win 6).blk t).view.read (Elt Ideal)
      (Cert.Spec.logSoftmax (F := Ideal)
        (Cert.Spec.scores (F := Ideal) (Cert.Spec.biasRelu (F := Ideal) (V c main_v28) b2) (V c main_arg8) bl)) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x40) hz, View.ld_unit_zero (S := S1x40) hz]
  refine funext fun (j : S5000x40.Idx) => ?_
  obtain ⟨r, n, rfl⟩ : ∃ (r : Fin 5000) (n : Fin 40), j = ix2 r n := ⟨j 0, j 1, eq_ix2 j⟩
  rw [View.read_apply]
  have hN : t.val < 20 := Nat.lt_of_lt_of_eq t.isLt N_2
  show k2_pay3 (iblk2 V c 0 t) (iblk2 V c 1 t) (iblk2 V c 2 t) (iblk2 V c 3 t) (ix2 r n)
    = Cert.Spec.logSoftmax (F := Ideal)
        (Cert.Spec.scores (F := Ideal) (Cert.Spec.biasRelu (F := Ideal) (V c main_v28) b2) (V c main_arg8) bl)
        (((View.whole main_v31_2).slice ((win2 6).rect t)).emb (ix2 r n))
  rw [emb2_6 t r n (by omega)]
  exact logp_entry V c b2 bl hrow2 hrow3 t r n _

include hrow2 in
/-- After the region the first output is the second layer's activations. -/
theorem final2_4 : (dat2 V c).arrAt 4 cfg2.N = Cert.Spec.biasRelu (F := Ideal) (V c main_v28) b2 :=
  (dat2 V c).arrAt_eq_of_cover 4 _ (fun t _ => flushed2_4 V c b2 hrow2 t) cover2_4

include hrow2 hrow3 in
/-- After the region the second output is the scores. -/
theorem final2_5 : (dat2 V c).arrAt 5 cfg2.N
    = Cert.Spec.scores (F := Ideal) (Cert.Spec.biasRelu (F := Ideal) (V c main_v28) b2) (V c main_arg8) bl :=
  (dat2 V c).arrAt_eq_of_cover 5 _ (fun t _ => flushed2_5 V c b2 bl hrow2 hrow3 t) cover2_5

include hrow2 hrow3 in
/-- After the region the third output is the scores' row-wise log-softmax. -/
theorem final2_6 : (dat2 V c).arrAt 6 cfg2.N
    = Cert.Spec.logSoftmax (F := Ideal)
        (Cert.Spec.scores (F := Ideal) (Cert.Spec.biasRelu (F := Ideal) (V c main_v28) b2) (V c main_arg8) bl) :=
  (dat2 V c).arrAt_eq_of_cover 6 _ (fun t _ => flushed2_6 V c b2 bl hrow2 hrow3 t) cover2_6

end

end Cert.KernelIdeal.Region2

end
-- ==== Proof.KernelValue.lean ====
/-
  The kernel program's four results as the network's outputs.

  The memory after the kernel program's run is a fold through five segments (the frame's W₀ … W₅): a region leaves
  its output arrays at what its grid points wrote back and everything else as it was, a host stretch applies its
  operations. Read at the buffers that matter, from the launch memory onward:
    * after the first region the product buffer holds X · W₁;
    * after the first stretch the aggregation buffer holds its aggregation and the row buffer the first bias as a row;
    * after the second region the two outputs hold H₁ = max(A₁ + b₁, 0) and H₁ · W₂;
    * after the second stretch the aggregation buffer holds the aggregation of H₁ · W₂, the row buffers the other two
      biases as rows, and H₁ is untouched;
    * after the third region the three outputs hold H₂, the scores H₂ · Wₗ + bₗ, and the scores' log-softmax.
  No segment writes an argument, so every level reads the arguments as launched.
-/
import proofs.«140483_j67920612819568_1_alg».proof.Proof.Gen.KernelIdeal.Frame
import proofs.«140483_j67920612819568_1_alg».proof.Proof.Spec
import proofs.«140483_j67920612819568_1_alg».proof.Proof.HostGlue
import proofs.«140483_j67920612819568_1_alg».proof.Proof.Region0
import proofs.«140483_j67920612819568_1_alg».proof.Proof.Region1
import proofs.«140483_j67920612819568_1_alg».proof.Proof.Region2

set_option maxRecDepth 16384

noncomputable section

namespace Cert.KernelIdeal.Value

open Cert.KernelIdeal Cert.KernelIdeal.Gen
open Idealize.ShloMosaic Idealize.ShloMosaic.TcCoe Idealize.SL.Sem
open Cert.Spec (dense1 dense2 aggregate biasRelu scores logSoftmax hidden1 hidden2)

variable (m : (ℓ : Loc nD τ sig) → Buf (Elt Ideal) ℓ) (ρ : Dev nD → PrngReg) (c : Dev nD)

/-- The first layer's activations, from the launch memory. -/
abbrev H1 : Cert.Spec.Arr Ideal Cert.ReferenceIdeal.S100000x64 :=
  hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The second layer's activations. -/
abbrev H2 : Cert.Spec.Arr Ideal Cert.ReferenceIdeal.S100000x64 :=
  hidden2 (F := Ideal) (H1 m c) (m ((c : Thread nD τ).loc main_arg1)) (m ((c : Thread nD τ).loc main_arg2)) (m ((c : Thread nD τ).loc main_arg3)) (m ((c : Thread nD τ).loc main_arg6)) (m ((c : Thread nD τ).loc main_arg7))
/-- The scores. -/
abbrev Sc : Cert.Spec.Arr Ideal Cert.ReferenceIdeal.S100000x40 :=
  scores (F := Ideal) (H2 m c) (m ((c : Thread nD τ).loc main_arg8)) (m ((c : Thread nD τ).loc main_arg9))

/-! ## After the first region -/

theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  W1_of_ne m ρ c main_arg3 (by decide)
theorem W1_arg5 : W1 m ρ c (Proc.devRef .tc main_arg5) = m ((c : Thread nD τ).loc main_arg5) :=
  W1_of_ne m ρ c main_arg5 (by decide)
theorem W1_arg6 : W1 m ρ c (Proc.devRef .tc main_arg6) = m ((c : Thread nD τ).loc main_arg6) :=
  W1_of_ne m ρ c main_arg6 (by decide)
theorem W1_arg7 : W1 m ρ c (Proc.devRef .tc main_arg7) = m ((c : Thread nD τ).loc main_arg7) :=
  W1_of_ne m ρ c main_arg7 (by decide)
theorem W1_arg8 : W1 m ρ c (Proc.devRef .tc main_arg8) = m ((c : Thread nD τ).loc main_arg8) :=
  W1_of_ne m ρ c main_arg8 (by decide)
theorem W1_arg9 : W1 m ρ c (Proc.devRef .tc main_arg9) = m ((c : Thread nD τ).loc main_arg9) :=
  W1_of_ne m ρ c main_arg9 (by decide)

/-- The product buffer holds X · W₁. -/
theorem W1_v0 : W1 m ρ c (Proc.devRef .tc main_v0) = dense1 (F := Ideal) (m ((c : Thread nD τ).loc main_arg0)) (m ((c : Thread nD τ).loc main_arg4)) :=
  (W1_arr m ρ c 2).trans (Cert.KernelIdeal.Region0.final (V0 m ρ) c)

/-! ## After the first host stretch -/

theorem W2_arg1 : W2 m ρ c (Proc.devRef .tc main_arg1) = m ((c : Thread nD τ).loc main_arg1) :=
  (Cert.KernelIdeal.Glue.keep1_main_arg1 (W1 m ρ c)).trans (W1_arg1 m ρ c)
theorem W2_arg2 : W2 m ρ c (Proc.devRef .tc main_arg2) = m ((c : Thread nD τ).loc main_arg2) :=
  (Cert.KernelIdeal.Glue.keep1_main_arg2 (W1 m ρ c)).trans (W1_arg2 m ρ c)
theorem W2_arg3 : W2 m ρ c (Proc.devRef .tc main_arg3) = m ((c : Thread nD τ).loc main_arg3) :=
  (Cert.KernelIdeal.Glue.keep1_main_arg3 (W1 m ρ c)).trans (W1_arg3 m ρ c)
theorem W2_arg6 : W2 m ρ c (Proc.devRef .tc main_arg6) = m ((c : Thread nD τ).loc main_arg6) :=
  (Cert.KernelIdeal.Glue.keep1_main_arg6 (W1 m ρ c)).trans (W1_arg6 m ρ c)
theorem W2_arg7 : W2 m ρ c (Proc.devRef .tc main_arg7) = m ((c : Thread nD τ).loc main_arg7) :=
  (Cert.KernelIdeal.Glue.keep1_main_arg7 (W1 m ρ c)).trans (W1_arg7 m ρ c)
theorem W2_arg8 : W2 m ρ c (Proc.devRef .tc main_arg8) = m ((c : Thread nD τ).loc main_arg8) :=
  (Cert.KernelIdeal.Glue.keep1_main_arg8 (W1 m ρ c)).trans (W1_arg8 m ρ c)
theorem W2_arg9 : W2 m ρ c (Proc.devRef .tc main_arg9) = m ((c : Thread nD τ).loc main_arg9) :=
  (Cert.KernelIdeal.Glue.keep1_main_arg9 (W1 m ρ c)).trans (W1_arg9 m ρ c)

/-- The aggregation buffer holds the aggregation of X · W₁. -/
theorem W2_v13 : W2 m ρ c (Proc.devRef .tc main_v13)
    = aggregate (F := Ideal) (dense1 (F := Ideal) (m ((c : Thread nD τ).loc main_arg0)) (m ((c : Thread nD τ).loc main_arg4))) (m ((c : Thread nD τ).loc main_arg1)) (m ((c : Thread nD τ).loc main_arg2)) (m ((c : Thread nD τ).loc main_arg3)) := by
  refine (Cert.KernelIdeal.Glue.agg1 (W1 m ρ c)).trans ?_
  rw [W1_v0 m ρ c, W1_arg1 m ρ c, W1_arg2 m ρ c, W1_arg3 m ρ c]

/-- The row buffer holds the first bias as one row. -/
theorem W2_v14 : (W2 m ρ c (Proc.devRef .tc main_v14) : S1x64.Idx → EReal)
    = shapeCast S1x64 (m ((c : Thread nD τ).loc main_arg5)) shapeCasts_S64_S1x64 := by
  refine (Cert.KernelIdeal.Glue.row1 (W1 m ρ c)).trans ?_
  rw [W1_arg5 m ρ c]

/-! ## After the second region -/

theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg7 : W3 m ρ c (Proc.devRef .tc main_arg7) = m ((c : Thread nD τ).loc main_arg7) :=
  (W3_of_ne m ρ c main_arg7 (by decide)).trans (W2_arg7 m ρ c)
theorem W3_arg8 : W3 m ρ c (Proc.devRef .tc main_arg8) = m ((c : Thread nD τ).loc main_arg8) :=
  (W3_of_ne m ρ c main_arg8 (by decide)).trans (W2_arg8 m ρ c)
theorem W3_arg9 : W3 m ρ c (Proc.devRef .tc main_arg9) = m ((c : Thread nD τ).loc main_arg9) :=
  (W3_of_ne m ρ c main_arg9 (by decide)).trans (W2_arg9 m ρ c)

/-- The first output holds the first layer's activations. -/
theorem W3_v15_0 : W3 m ρ c (Proc.devRef .tc main_v15_0) = H1 m c :=
  (W3_arr m ρ c 3).trans
    ((Cert.KernelIdeal.Region1.final1_3 (V2 m ρ) c (m ((c : Thread nD τ).loc main_arg5)) (W2_v14 m ρ c)).trans
      (congrArg (fun a => biasRelu (F := Ideal) a (m ((c : Thread nD τ).loc main_arg5))) (W2_v13 m ρ c)))

/-- The second output holds the activations times W₂. -/
theorem W3_v15_1 : W3 m ρ c (Proc.devRef .tc main_v15_1) = dense2 (F := Ideal) (H1 m c) (m ((c : Thread nD τ).loc main_arg6)) :=
  (W3_arr m ρ c 4).trans
    ((Cert.KernelIdeal.Region1.final1_4 (V2 m ρ) c (m ((c : Thread nD τ).loc main_arg5)) (W2_v14 m ρ c)).trans
      (congrArg₂ (fun a w => dense2 (F := Ideal) (biasRelu (F := Ideal) a (m ((c : Thread nD τ).loc main_arg5))) w) (W2_v13 m ρ c) (W2_arg6 m ρ c)))

/-! ## After the second host stretch -/

theorem W4_arg8 : W4 m ρ c (Proc.devRef .tc main_arg8) = m ((c : Thread nD τ).loc main_arg8) :=
  (Cert.KernelIdeal.Glue.keep2_main_arg8 (W3 m ρ c)).trans (W3_arg8 m ρ c)

/-- The first layer's activations are untouched. -/
theorem W4_v15_0 : W4 m ρ c (Proc.devRef .tc main_v15_0) = H1 m c :=
  (Cert.KernelIdeal.Glue.keep2_main_v15_0 (W3 m ρ c)).trans (W3_v15_0 m ρ c)

/-- The aggregation buffer holds the aggregation of H₁ · W₂. -/
theorem W4_v28 : W4 m ρ c (Proc.devRef .tc main_v28)
    = aggregate (F := Ideal) (dense2 (F := Ideal) (H1 m c) (m ((c : Thread nD τ).loc main_arg6))) (m ((c : Thread nD τ).loc main_arg1)) (m ((c : Thread nD τ).loc main_arg2)) (m ((c : Thread nD τ).loc main_arg3)) := by
  refine (Cert.KernelIdeal.Glue.agg2 (W3 m ρ c)).trans ?_
  rw [W3_v15_1 m ρ c, W3_arg1 m ρ c, W3_arg2 m ρ c, W3_arg3 m ρ c]

/-- The second bias as one row. -/
theorem W4_v29 : (W4 m ρ c (Proc.devRef .tc main_v29) : S1x64.Idx → EReal)
    = shapeCast S1x64 (m ((c : Thread nD τ).loc main_arg7)) shapeCasts_S64_S1x64 := by
  refine (Cert.KernelIdeal.Glue.row2 (W3 m ρ c)).trans ?_
  rw [W3_arg7 m ρ c]

/-- The classifier's bias as one row. -/
theorem W4_v30 : (W4 m ρ c (Proc.devRef .tc main_v30) : S1x40.Idx → EReal)
    = shapeCast S1x40 (m ((c : Thread nD τ).loc main_arg9)) shapeCasts_S40_S1x40 := by
  refine (Cert.KernelIdeal.Glue.row3 (W3 m ρ c)).trans ?_
  rw [W3_arg9 m ρ c]

/-! ## After the third region: the four results -/

/-- The first layer's activations, as the run leaves them. -/
theorem W5_h1 : W5 m ρ c (Proc.devRef .tc main_v15_0) = H1 m c :=
  (W5_of_ne m ρ c main_v15_0 (by decide)).trans (W4_v15_0 m ρ c)

/-- The second layer's activations. -/
theorem W5_h2 : W5 m ρ c (Proc.devRef .tc main_v31_0) = H2 m c :=
  (W5_arr m ρ c 4).trans
    ((Cert.KernelIdeal.Region2.final2_4 (V4 m ρ) c (m ((c : Thread nD τ).loc main_arg7)) (W4_v29 m ρ c)).trans
      (congrArg (fun a => biasRelu (F := Ideal) a (m ((c : Thread nD τ).loc main_arg7))) (W4_v28 m ρ c)))

/-- The scores. -/
theorem W5_scores : W5 m ρ c (Proc.devRef .tc main_v31_1) = Sc m c :=
  (W5_arr m ρ c 5).trans
    ((Cert.KernelIdeal.Region2.final2_5 (V4 m ρ) c (m ((c : Thread nD τ).loc main_arg7)) (m ((c : Thread nD τ).loc main_arg9)) (W4_v29 m ρ c) (W4_v30 m ρ c)).trans
      (congrArg₂ (fun a w => scores (F := Ideal) (biasRelu (F := Ideal) a (m ((c : Thread nD τ).loc main_arg7))) w (m ((c : Thread nD τ).loc main_arg9)))
        (W4_v28 m ρ c) (W4_arg8 m ρ c)))

/-- The scores' row-wise log-softmax. -/
theorem W5_logp : W5 m ρ c (Proc.devRef .tc main_v31_2) = logSoftmax (F := Ideal) (Sc m c) :=
  (W5_arr m ρ c 6).trans
    ((Cert.KernelIdeal.Region2.final2_6 (V4 m ρ) c (m ((c : Thread nD τ).loc main_arg7)) (m ((c : Thread nD τ).loc main_arg9)) (W4_v29 m ρ c) (W4_v30 m ρ c)).trans
      (congrArg₂ (fun a w => logSoftmax (F := Ideal) (scores (F := Ideal) (biasRelu (F := Ideal) a (m ((c : Thread nD τ).loc main_arg7))) w (m ((c : Thread nD τ).loc main_arg9))))
        (W4_v28 m ρ c) (W4_arg8 m ρ c)))

end Cert.KernelIdeal.Value

end
-- ==== Proof.RefOps.lean ====
/-
  The reference program as a line of 65 host operations, and the same line cut into its four stages: the first
  layer, the second layer, the classifier's scores, the row-wise log-softmax.
-/
import proofs.«140483_j67920612819568_1_alg».proof.Proof.Gen.ReferenceIdeal
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The program's 65 operations, in order (a called function's operations stand in its call's place). -/
abbrev ops : List (HloOp τ sig (Elt F)) :=
  [ binary main_arg0 main_arg4 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf,
    binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v27 main_v28 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v29 (broadcastInDim S100000x64 ![] bcast_S_S100000x64 : (⟨S_, .f32⟩ : BufTy).Contents (Elt F) → (⟨S100000x64, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf,
    binary main_v35 main_arg8 main_v36 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v37 (broadcastInDim S1x40 ![1] bcast_S40_S1x40_1 : (⟨S40, .f32⟩ : BufTy).Contents (Elt F) → (⟨S1x40, .f32⟩ : BufTy).Contents (Elt F)),
    unary main_v37 main_v38 (broadcastInDim S100000x40 ![0, 1] bcast_S1x40_S100000x40_0_1 : (⟨S1x40, .f32⟩ : BufTy).Contents (Elt F) → (⟨S100000x40, .f32⟩ : BufTy).Contents (Elt F)),
    binary main_v36 main_v38 main_v39 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v39) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v39) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v40) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first layer: 23 operations, ending in its activations. -/
abbrev ops1 : List (HloOp τ sig (Elt F)) :=
  [ binary main_arg0 main_arg4 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S100000x64 ![0, 1] bcast_S1x64_S100000x64_0_1 : (⟨S1x64, .f32⟩ : BufTy).Contents (Elt F) → (⟨S100000x64, .f32⟩ : BufTy).Contents (Elt F)),
    binary main_v13 main_v15 main_v16 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v16) (TRef.of (T := ⟨S100000x64, .f32⟩) main_call0_v0) (TRef.of (T := ⟨S100000x64, .f32⟩) main_v17) maximumf ]
/-- The second layer: 23 operations, ending in its activations. -/
abbrev ops2 : List (HloOp τ sig (Elt F)) :=
  [ binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg1 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg1 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v27 main_v28 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v29 (broadcastInDim S100000x64 ![] bcast_S_S100000x64 : (⟨S_, .f32⟩ : BufTy).Contents (Elt F) → (⟨S100000x64, .f32⟩ : BufTy).Contents (Elt F)),
    unary main_arg2 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf ]
/-- The classifier's scores: 4 operations. -/
abbrev ops3 : List (HloOp τ sig (Elt F)) :=
  [ binary main_v35 main_arg8 main_v36 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v37 (broadcastInDim S1x40 ![1] bcast_S40_S1x40_1 : (⟨S40, .f32⟩ : BufTy).Contents (Elt F) → (⟨S1x40, .f32⟩ : BufTy).Contents (Elt F)),
    unary main_v37 main_v38 (broadcastInDim S100000x40 ![0, 1] bcast_S1x40_S100000x40_0_1 : (⟨S1x40, .f32⟩ : BufTy).Contents (Elt F) → (⟨S100000x40, .f32⟩ : BufTy).Contents (Elt F)),
    binary main_v36 main_v38 main_v39 (addf : (⟨S100000x40, .f32⟩ : BufTy).Contents (Elt F) → (⟨S100000x40, .f32⟩ : BufTy).Contents (Elt F) → (⟨S100000x40, .f32⟩ : BufTy).Contents (Elt F)) ]
/-- The row-wise log-softmax: 15 operations. -/
abbrev ops4 : List (HloOp τ sig (Elt F)) :=
  [ TRef.nullary (TRef.of (T := ⟨S_, .f32⟩) main_call2_cst) (constant S_ .f32 0xFF800000#32),
    TRef.binary (TRef.of (T := ⟨S100000x40, .f32⟩) main_v39) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v39) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v40) subf ]

set_option maxRecDepth 8192 in
/-- The line is its four stages one after the other. -/
theorem ops_split : (ops : List (HloOp τ sig (Elt F))) = ops1 ++ (ops2 ++ (ops3 ++ ops4)) := rfl

end Cert.ReferenceIdeal.Staged

end
-- ==== Proof.LibTypedRef.lean ====
/-
  Typed references to host buffers.

  A called function's operations address their buffers through typed references: a value of the tensor's type is moved
  to the buffer's own type to be stored, and back when it is read. The buffer's type IS the tensor's type, so moving
  a value there and back leaves it unchanged. With this, the contents after a called function's operations read as the
  plain composition of the operations' functions.
-/
import Idealize.ShloMosaic.Lib.StableHlo

noncomputable section

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef

end
-- ==== Proof.RefStages.lean ====
/-
  Each stage of the reference, started from ANY buffer contents: its result buffer ends at the stage's function of the
  buffers it reads (the network's stage, Spec), and the buffers the stage does not write keep their contents.
-/
import proofs.«140483_j67920612819568_1_alg».proof.Proof.RefOps
import proofs.«140483_j67920612819568_1_alg».proof.Proof.Spec
import proofs.«140483_j67920612819568_1_alg».proof.Proof.LibTypedRef

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-! ## Each stage from arbitrary contents -/

/-- The first layer's activations, from the buffers the stage reads. -/
theorem stage1 (W : Valuation τ sig (Elt F)) :
    after (ops1 (F := F)) W (Proc.devRef .tc main_v17)
      = Cert.Spec.hidden1 (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp <;> rfl

/-- The second layer's activations, from the first's and the buffers the stage reads. -/
theorem stage2 (W : Valuation τ sig (Elt F)) :
    after (ops2 (F := F)) W (Proc.devRef .tc main_v35)
      = Cert.Spec.hidden2 (W (Proc.devRef .tc main_v17)) (W (Proc.devRef .tc main_arg1)) (W (Proc.devRef .tc main_arg2)) (W (Proc.devRef .tc main_arg3)) (W (Proc.devRef .tc main_arg6)) (W (Proc.devRef .tc main_arg7)) := by
  after_results_simp <;> rfl

/-- The classifier's scores, from the second layer's activations. -/
theorem stage3 (W : Valuation τ sig (Elt F)) :
    after (ops3 (F := F)) W (Proc.devRef .tc main_v39)
      = Cert.Spec.scores (W (Proc.devRef .tc main_v35)) (W (Proc.devRef .tc main_arg8)) (W (Proc.devRef .tc main_arg9)) := by
  after_results_simp <;> rfl

/-- The log-softmax of the scores. -/
theorem stage4 (W : Valuation τ sig (Elt F)) :
    after (ops4 (F := F)) W (Proc.devRef .tc main_v40) = Cert.Spec.logSoftmax (W (Proc.devRef .tc main_v39)) := by
  after_results_simp
  simp only [Cert.LibTypedRef.ofBuf_toBuf]
  rfl

/-! ## What each stage leaves alone -/

theorem keep1_main_arg1 (W : Valuation τ sig (Elt F)) : after (ops1 (F := F)) W (Proc.devRef .tc main_arg1) = W (Proc.devRef .tc main_arg1) := by
  after_results_simp
theorem keep1_main_arg2 (W : Valuation τ sig (Elt F)) : after (ops1 (F := F)) W (Proc.devRef .tc main_arg2) = W (Proc.devRef .tc main_arg2) := by
  after_results_simp
theorem keep1_main_arg3 (W : Valuation τ sig (Elt F)) : after (ops1 (F := F)) W (Proc.devRef .tc main_arg3) = W (Proc.devRef .tc main_arg3) := by
  after_results_simp
theorem keep1_main_arg6 (W : Valuation τ sig (Elt F)) : after (ops1 (F := F)) W (Proc.devRef .tc main_arg6) = W (Proc.devRef .tc main_arg6) := by
  after_results_simp
theorem keep1_main_arg7 (W : Valuation τ sig (Elt F)) : after (ops1 (F := F)) W (Proc.devRef .tc main_arg7) = W (Proc.devRef .tc main_arg7) := by
  after_results_simp
theorem keep1_main_arg8 (W : Valuation τ sig (Elt F)) : after (ops1 (F := F)) W (Proc.devRef .tc main_arg8) = W (Proc.devRef .tc main_arg8) := by
  after_results_simp
theorem keep1_main_arg9 (W : Valuation τ sig (Elt F)) : after (ops1 (F := F)) W (Proc.devRef .tc main_arg9) = W (Proc.devRef .tc main_arg9) := by
  after_results_simp
theorem keep2_main_v17 (W : Valuation τ sig (Elt F)) : after (ops2 (F := F)) W (Proc.devRef .tc main_v17) = W (Proc.devRef .tc main_v17) := by
  after_results_simp
theorem keep2_main_arg8 (W : Valuation τ sig (Elt F)) : after (ops2 (F := F)) W (Proc.devRef .tc main_arg8) = W (Proc.devRef .tc main_arg8) := by
  after_results_simp
theorem keep2_main_arg9 (W : Valuation τ sig (Elt F)) : after (ops2 (F := F)) W (Proc.devRef .tc main_arg9) = W (Proc.devRef .tc main_arg9) := by
  after_results_simp
theorem keep3_main_v17 (W : Valuation τ sig (Elt F)) : after (ops3 (F := F)) W (Proc.devRef .tc main_v17) = W (Proc.devRef .tc main_v17) := by
  after_results_simp
theorem keep3_main_v35 (W : Valuation τ sig (Elt F)) : after (ops3 (F := F)) W (Proc.devRef .tc main_v35) = W (Proc.devRef .tc main_v35) := by
  after_results_simp
theorem keep4_main_v17 (W : Valuation τ sig (Elt F)) : after (ops4 (F := F)) W (Proc.devRef .tc main_v17) = W (Proc.devRef .tc main_v17) := by
  after_results_simp
theorem keep4_main_v35 (W : Valuation τ sig (Elt F)) : after (ops4 (F := F)) W (Proc.devRef .tc main_v35) = W (Proc.devRef .tc main_v35) := by
  after_results_simp
theorem keep4_main_v39 (W : Valuation τ sig (Elt F)) : after (ops4 (F := F)) W (Proc.devRef .tc main_v39) = W (Proc.devRef .tc main_v39) := by
  after_results_simp

end Cert.ReferenceIdeal.Staged

end
-- ==== Proof.LibAfterAppend.lean ====
/-
  The buffer contents after a line of host operations, when the line is two lines one after the other: the contents
  after the whole line are the contents after the second line started from the contents after the first. (The
  contents after a line are a fold of the operations' results over the starting contents; a fold over a
  concatenation is the second fold applied to the first.) This lets a long program be read stage by stage, each
  stage from an arbitrary starting valuation.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after `l₁ ++ l₂` from `V` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend

end
-- ==== Proof.RefRun.lean ====
/-
  The reference program's run. The contents after the whole line are the four stages' folds composed, so the four
  result buffers end at the network's four outputs of the launch contents; and every weakly fair execution of the
  reference terminates in such a state, with the arguments unchanged.
-/
import proofs.«140483_j67920612819568_1_alg».proof.Proof.RefStages
import proofs.«140483_j67920612819568_1_alg».proof.Proof.LibAfterAppend

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-! ## The four results after the whole line -/

variable (V : Valuation τ sig (Elt Ideal))

/-- The first layer's activations as a function of the starting contents. -/
abbrev H1 : Cert.Spec.Arr Ideal S100000x64 :=
  Cert.Spec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))
/-- The second layer's activations. -/
abbrev H2 : Cert.Spec.Arr Ideal S100000x64 :=
  Cert.Spec.hidden2 (H1 V) (V (Proc.devRef .tc main_arg1)) (V (Proc.devRef .tc main_arg2)) (V (Proc.devRef .tc main_arg3)) (V (Proc.devRef .tc main_arg6)) (V (Proc.devRef .tc main_arg7))
/-- The scores. -/
abbrev Sc : Cert.Spec.Arr Ideal S100000x40 := Cert.Spec.scores (H2 V) (V (Proc.devRef .tc main_arg8)) (V (Proc.devRef .tc main_arg9))

theorem res_h1 : after (ops (F := Ideal)) V (Proc.devRef .tc main_v17) = H1 V := by
  rw [ops_split, Cert.LibAfterAppend.after_append, Cert.LibAfterAppend.after_append, Cert.LibAfterAppend.after_append,
    keep4_main_v17, keep3_main_v17, keep2_main_v17, stage1]

theorem res_h2 : after (ops (F := Ideal)) V (Proc.devRef .tc main_v35) = H2 V := by
  rw [ops_split, Cert.LibAfterAppend.after_append, Cert.LibAfterAppend.after_append, Cert.LibAfterAppend.after_append,
    keep4_main_v35, keep3_main_v35, stage2, stage1, keep1_main_arg1, keep1_main_arg2, keep1_main_arg3, keep1_main_arg6, keep1_main_arg7]

theorem res_scores : after (ops (F := Ideal)) V (Proc.devRef .tc main_v39) = Sc V := by
  rw [ops_split, Cert.LibAfterAppend.after_append, Cert.LibAfterAppend.after_append, Cert.LibAfterAppend.after_append,
    keep4_main_v39, stage3, stage2, stage1, keep2_main_arg8, keep2_main_arg9, keep1_main_arg8, keep1_main_arg9,
    keep1_main_arg1, keep1_main_arg2, keep1_main_arg3, keep1_main_arg6, keep1_main_arg7]

theorem res_logp : after (ops (F := Ideal)) V (Proc.devRef .tc main_v40) = Cert.Spec.logSoftmax (Sc V) := by
  rw [ops_split, Cert.LibAfterAppend.after_append, Cert.LibAfterAppend.after_append, Cert.LibAfterAppend.after_append,
    stage4, stage3, stage2, stage1, keep2_main_arg8, keep2_main_arg9, keep1_main_arg8, keep1_main_arg9,
    keep1_main_arg1, keep1_main_arg2, keep1_main_arg3, keep1_main_arg6, keep1_main_arg7]

/-! ## The run -/

set_option maxRecDepth 8192 in
set_option maxHeartbeats 26000000 in
/-- From any memory with zero counters: every weakly fair execution of the reference terminates with the four
    results at the network's outputs of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = Cert.Spec.logSoftmax (Sc (launchContents m c))
      ∧ r.2.mem ((c.tc : Thread nD τ).loc main_v17) = H1 (launchContents m c)
      ∧ r.2.mem ((c.tc : Thread nD τ).loc main_v35) = H2 (launchContents m c)
      ∧ r.2.mem ((c.tc : Thread nD τ).loc main_v39) = Sc (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v40).trans (res_logp _),
      (h c main_v17).trans (res_h1 _),
      (h c main_v35).trans (res_h2 _),
      (h c main_v39).trans (res_scores _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Staged

end
-- ==== Proof.lean ====
/-
  A two-layer graph convolution with a linear classifier and a log-softmax, computed by a kernel program of three
  row-blocked regions, equals its plain reference over the extended reals.

  Both programs compute, from node features X [100000, 128], a weighted edge list of 1600000 edges and the layers'
  weights:
      H₁ = max(A(X · W₁) + b₁, 0),   H₂ = max(A(H₁ · W₂) + b₂, 0),   S = H₂ · Wₗ + bₗ,   P = logsoftmax_rows(S),
  where A is the neighbourhood aggregation (gather the source rows, scale by the edge weights, add at the destination
  rows). They return (P, H₁, H₂, S).

  The reference is a straight line of host operations; its run, read in four stages, ends with the four results at
  these functions of its arguments (Proof/RefRun.lean).

  The kernel program runs A on the host, spelt as the reference spells it, and the dense parts in three regions over
  20 blocks of 5000 rows: X · W₁; then max(· + b₁, 0) and the product with W₂; then max(· + b₂, 0), the scores and
  their row-wise log-softmax. Over the extended reals a change of float format is the identity and a matrix product
  into a zero accumulator is the plain sum of products, so each region's block t is block t of the corresponding whole
  array (Proof/Region0.lean, Region1.lean, Region2.lean: a row's bias, maximum and sum depend on that row only, and the
  blocks are whole rows), the blocks tile the outputs, and the memory after the run, a fold through the five segments,
  holds the same four functions of the arguments (Proof/KernelRun.lean, KernelValue.lean). No law of arithmetic beyond
  reading both sides as the same sums is used, so the inputs' finiteness is never opened.

  The frames: the two kernel programs' are the generated frame certificates; the reference's is its run with the
  results dropped. The idealization rewrote no operation, so there is nothing to preserve.
-/
import proofs.«140483_j67920612819568_1_alg».proof.Defs
import proofs.«140483_j67920612819568_1_alg».proof.Proof.Gen.Kernel
import proofs.«140483_j67920612819568_1_alg».proof.Proof.Gen.Kernel.Skeleton
import proofs.«140483_j67920612819568_1_alg».proof.Proof.Gen.Kernel.Launch
import proofs.«140483_j67920612819568_1_alg».proof.Proof.Gen.Kernel.Points
import proofs.«140483_j67920612819568_1_alg».proof.Proof.Gen.Kernel.Frame
import proofs.«140483_j67920612819568_1_alg».proof.Proof.Gen.KernelIdeal
import proofs.«140483_j67920612819568_1_alg».proof.Proof.Gen.KernelIdeal.Skeleton
import proofs.«140483_j67920612819568_1_alg».proof.Proof.Gen.KernelIdeal.Launch
import proofs.«140483_j67920612819568_1_alg».proof.Proof.Gen.KernelIdeal.Points
import proofs.«140483_j67920612819568_1_alg».proof.Proof.Gen.KernelIdeal.Frame
import proofs.«140483_j67920612819568_1_alg».proof.Proof.Gen.ReferenceIdeal
import proofs.«140483_j67920612819568_1_alg».proof.Proof.Gen.Pre_finite_inputs
import proofs.«140483_j67920612819568_1_alg».proof.Proof.KernelRun
import proofs.«140483_j67920612819568_1_alg».proof.Proof.KernelValue
import proofs.«140483_j67920612819568_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the four results dropped. -/
theorem frame_ri : Cert.frame_ReferenceIdeal := fun m ρ _ =>
  (θ_run Cert.ReferenceIdeal.defs _ _).mono (fun _ h c => (h c).2.2.2.2) (Cert.ReferenceIdeal.Staged.run m ρ)

/-- The idealization rewrote no operation. -/
theorem preserves : Cert.preserves_Kernel_KernelIdeal := trivial

/-- From memories agreeing on the arguments both programs end with (P, H₁, H₂, S) of those arguments. -/
theorem algebraic : Cert.algebraic_KernelIdeal_ReferenceIdeal := by
  intro m ρ m' ρ' _ hagree
  refine ⟨fun c => Cert.Spec.logSoftmax (F := Ideal) (Cert.KernelIdeal.Value.Sc m c), fun c => Cert.KernelIdeal.Value.H1 m c,
    fun c => Cert.KernelIdeal.Value.H2 m c, fun c => Cert.KernelIdeal.Value.Sc m c, ?_, ?_⟩
  · refine (θ_run Cert.KernelIdeal.defs _ _).mono (fun r h c => ?_) (Cert.KernelIdeal.Whole.run (F := Ideal) m ρ)
    obtain ⟨h0, h1, h2, h3, hargs⟩ := h c
    exact ⟨h0.trans (Cert.KernelIdeal.Value.W5_logp m ρ c), h1.trans (Cert.KernelIdeal.Value.W5_h1 m ρ c),
      h2.trans (Cert.KernelIdeal.Value.W5_h2 m ρ c), h3.trans (Cert.KernelIdeal.Value.W5_scores m ρ c), hargs⟩
  · refine (θ_run Cert.ReferenceIdeal.defs _ _).mono (fun r h c => ?_) (Cert.ReferenceIdeal.Staged.run m' ρ')
    obtain ⟨h0, h1, h2, h3, hargs⟩ := h c
    obtain ⟨e0, e1, e2, e3, e4, e5, e6, e7, e8, e9⟩ := hagree c
    have hH1 : Cert.ReferenceIdeal.Staged.H1 (launchContents m' c) = Cert.KernelIdeal.Value.H1 m c := by
      show Cert.Spec.hidden1 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        = Cert.Spec.hidden1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      rw [e0, e1, e2, e3, e4, e5]
    have hH2 : Cert.ReferenceIdeal.Staged.H2 (launchContents m' c) = Cert.KernelIdeal.Value.H2 m c := by
      show Cert.Spec.hidden2 (F := Ideal) (Cert.ReferenceIdeal.Staged.H1 (launchContents m' c)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.Spec.hidden2 (F := Ideal) (Cert.KernelIdeal.Value.H1 m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      rw [hH1, e1, e2, e3, e6, e7]
    have hSc : Cert.ReferenceIdeal.Staged.Sc (launchContents m' c) = Cert.KernelIdeal.Value.Sc m c := by
      show Cert.Spec.scores (F := Ideal) (Cert.ReferenceIdeal.Staged.H2 (launchContents m' c)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
        = Cert.Spec.scores (F := Ideal) (Cert.KernelIdeal.Value.H2 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      rw [hH2, e8, e9]
    exact ⟨h0.trans (congrArg (Cert.Spec.logSoftmax (F := Ideal)) hSc), h1.trans hH1, h2.trans hH2, h3.trans hSc, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
